-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x64 : Shape := ⟨2, ![16, 64]⟩
abbrev S64 : Shape := ⟨1, ![64]⟩
abbrev S128x1 : Shape := ⟨2, ![128, 1]⟩
abbrev S1 : Shape := ⟨1, ![1]⟩
abbrev S2x3200000 : Shape := ⟨2, ![2, 3200000]⟩
abbrev S2x1000000 : Shape := ⟨2, ![2, 1000000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S128x1 .f32) (main_arg6 : FVec F S1 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x512 .f32) (main_arg1 : FVec F S512x16 .f32) (main_arg2 : FVec F S16 .f32) (main_arg3 : FVec F S16x64 .f32) (main_arg4 : FVec F S64 .f32) (main_arg5 : FVec F S128x1 .f32) (main_arg6 : FVec F S1 .f32) (main_arg7 : IVec S2x3200000 32) (main_arg8 : IVec S2x1000000 32) (main_arg9 : IVec S2x1000000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_arg6 main_v13 main_v16
-- ==== Kernel.lean ====
abbrev S100000x512 : Shape := ⟨2, ![100000, 512]⟩
abbrev S512x16 : Shape := ⟨2, ![512, 16]⟩
abbrev S16 : Shape := ⟨1, ![16]⟩
abbrev S16x64 : Shape := ⟨2, ![16, 64]⟩
abbrev S64 : Shape := ⟨1, ![64]⟩
abbrev S128x1 : Shape := ⟨2, ![128, 1]⟩
abbrev S1 : Shape := ⟨1, ![1]⟩
abbrev S2x3200000 : Shape := ⟨2, ![2, 3200000]⟩
abbrev S2x1000000 : Shape := ⟨2, ![2, 1000000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x64 : Shape := ⟨2, ![100000, 64]⟩
abbrev S5000x64 : Shape := ⟨2, ![5000, 64]⟩
abbrev S1x64 : Shape := ⟨2, ![1, 64]⟩
abbrev S64x1 : Shape := ⟨2, ![64, 1]⟩
abbrev S64x2 : Shape := ⟨2, ![64, 2]⟩
abbrev S100000x2 : Shape := ⟨2, ![100000, 2]⟩
abbrev S5000x2 : Shape := ⟨2, ![5000, 2]⟩
abbrev S100000x1 : Shape := ⟨2, ![100000, 1]⟩
abbrev S2x2000000 : Shape := ⟨2, ![2, 2000000]⟩
abbrev S1x2000000 : Shape := ⟨2, ![1, 2000000]⟩
abbrev S2000000 : Shape := ⟨1, ![2000000]⟩
abbrev S2000000x1 : Shape := ⟨2, ![2000000, 1]⟩

abbrev nBuf : Space → Nat
  | .hbm => 121
  | .vmem => 15
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x64, .f32⟩
  | .hbm, ⟨4, _⟩ => ⟨S64, .f32⟩
  | .hbm, ⟨5, _⟩ => ⟨S128x1, .f32⟩
  | .hbm, ⟨6, _⟩ => ⟨S1, .f32⟩
  | .hbm, ⟨7, _⟩ => ⟨S2x3200000, .i32⟩
  | .hbm, ⟨8, _⟩ => ⟨S2x1000000, .i32⟩
  | .hbm, ⟨9, _⟩ => ⟨S2x1000000, .i32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3300000, .i32⟩
  | .hbm, ⟨26, _⟩ => ⟨S3300000, .i1⟩
  | .hbm, ⟨27, _⟩ => ⟨S_, .i32⟩
  | .hbm, ⟨28, _⟩ => ⟨S3300000, .i32⟩
  | .hbm, ⟨29, _⟩ => ⟨S3300000, .i32⟩
  | .hbm, ⟨30, _⟩ => ⟨S3300000, .i32⟩
  | .hbm, ⟨31, _⟩ => ⟨S3300000x1, .i32⟩
  | .hbm, ⟨32, _⟩ => ⟨S3300000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S3300000, .f32⟩
  | .hbm, ⟨43, _⟩ => ⟨S3300000x1, .f32⟩
  | .hbm, ⟨44, _⟩ => ⟨S100000x16, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x16, .f32⟩
  | .hbm, ⟨54, _⟩ => ⟨S3300000x16, .f32⟩
  | .hbm, ⟨55, _⟩ => ⟨S3300000x16, .f32⟩
  | .hbm, ⟨56, _⟩ => ⟨S_, .f32⟩
  | .hbm, ⟨57, _⟩ => ⟨S100000x16, .f32⟩
  | .hbm, ⟨58, _⟩ => ⟨S3300000x1, .i32⟩
  | .hbm, ⟨59, _⟩ => ⟨S100000x16, .f32⟩
  | .hbm, ⟨60, _⟩ => ⟨S1x16, .f32⟩
  | .hbm, ⟨61, _⟩ => ⟨S100000x16, .f32⟩
  | .hbm, ⟨62, _⟩ => ⟨S100000x16, .f32⟩
  | .hbm, ⟨63, _⟩ => ⟨S_, .f32⟩
  | .hbm, ⟨64, _⟩ => ⟨S100000x16, .f32⟩
  | .hbm, ⟨65, _⟩ => ⟨S100000x16, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x16, .f32⟩
  | .hbm, ⟨75, _⟩ => ⟨S3300000x16, .f32⟩
  | .hbm, ⟨76, _⟩ => ⟨S3300000x16, .f32⟩
  | .hbm, ⟨77, _⟩ => ⟨S_, .f32⟩
  | .hbm, ⟨78, _⟩ => ⟨S100000x16, .f32⟩
  | .hbm, ⟨79, _⟩ => ⟨S3300000x1, .i32⟩
  | .hbm, ⟨80, _⟩ => ⟨S100000x16, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S64x1, .f32⟩
  | .hbm, ⟨86, _⟩ => ⟨S64x1, .f32⟩
  | .hbm, ⟨87, _⟩ => ⟨S64x2, .f32⟩
  | .hbm, ⟨88, _⟩ => ⟨S100000x2, .f32⟩
  | .hbm, ⟨89, _⟩ => ⟨S100000x1, .f32⟩
  | .hbm, ⟨90, _⟩ => ⟨S100000, .f32⟩
  | .hbm, ⟨91, _⟩ => ⟨S100000x1, .f32⟩
  | .hbm, ⟨92, _⟩ => ⟨S100000, .f32⟩
  | .hbm, ⟨93, _⟩ => ⟨S2x2000000, .i32⟩
  | .hbm, ⟨94, _⟩ => ⟨S1x2000000, .i32⟩
  | .hbm, ⟨95, _⟩ => ⟨S2000000, .i32⟩
  | .hbm, ⟨96, _⟩ => ⟨S_, .i32⟩
  | .hbm, ⟨97, _⟩ => ⟨S2000000, .i32⟩
  | .hbm, ⟨98, _⟩ => ⟨S2000000, .i1⟩
  | .hbm, ⟨99, _⟩ => ⟨S_, .i32⟩
  | .hbm, ⟨100, _⟩ => ⟨S2000000, .i32⟩
  | .hbm, ⟨101, _⟩ => ⟨S2000000, .i32⟩
  | .hbm, ⟨102, _⟩ => ⟨S2000000, .i32⟩
  | .hbm, ⟨103, _⟩ => ⟨S2000000x1, .i32⟩
  | .hbm, ⟨104, _⟩ => ⟨S2000000, .f32⟩
  | .hbm, ⟨105, _⟩ => ⟨S1x2000000, .i32⟩
  | .hbm, ⟨106, _⟩ => ⟨S2000000, .i32⟩
  | .hbm, ⟨107, _⟩ => ⟨S_, .i32⟩
  | .hbm, ⟨108, _⟩ => ⟨S2000000, .i32⟩
  | .hbm, ⟨109, _⟩ => ⟨S2000000, .i1⟩
  | .hbm, ⟨110, _⟩ => ⟨S_, .i32⟩
  | .hbm, ⟨111, _⟩ => ⟨S2000000, .i32⟩
  | .hbm, ⟨112, _⟩ => ⟨S2000000, .i32⟩
  | .hbm, ⟨113, _⟩ => ⟨S2000000, .i32⟩
  | .hbm, ⟨114, _⟩ => ⟨S2000000x1, .i32⟩
  | .hbm, ⟨115, _⟩ => ⟨S2000000, .f32⟩
  | .hbm, ⟨116, _⟩ => ⟨S2000000, .f32⟩
  | .hbm, ⟨117, _⟩ => ⟨S_, .f32⟩
  | .hbm, ⟨118, _⟩ => ⟨S2000000, .f32⟩
  | .hbm, ⟨119, _⟩ => ⟨S2000000, .f32⟩
  | .hbm, ⟨120, _⟩ => ⟨S2000000x1, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x2, .f32⟩
  | .local _ .vmem, ⟨13, _⟩ => ⟨S5000x2, .f32⟩
  | .local _ .vmem, ⟨14, _⟩ => ⟨S5000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_c_7 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_10 : Ref sig .tc := ⟨.hbm, 96, rfl⟩
abbrev main_v72 : Ref sig .tc := ⟨.hbm, 97, rfl⟩
abbrev main_v73 : Ref sig .tc := ⟨.hbm, 98, rfl⟩
abbrev main_c_11 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_12 : Ref sig .tc := ⟨.hbm, 107, rfl⟩
abbrev main_v81 : Ref sig .tc := ⟨.hbm, 108, rfl⟩
abbrev main_v82 : Ref sig .tc := ⟨.hbm, 109, rfl⟩
abbrev main_c_13 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x64_S16x64_0_0 : ∀ a, (![0, 0] : Fin 2 → Nat) a + S16x64.size a ≤ S16x64.size a
  h_S16x64 : 0 < S16x64.numel
  inb_S5000x64_S5000x64_0_0 : ∀ a, (![0, 0] : Fin 2 → Nat) a + S5000x64.size a ≤ S5000x64.size a
  h_S5000x64 : 0 < S5000x64.numel
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S128x1_S64x1_0_0 : S128x1.Slices ![0, 0] S64x1
  slices_S128x1_S64x1_64_0 : S128x1.Slices ![64, 0] S64x1
  concatenates_S64x1_S64x1_S64x2_d1 : Shape.Concatenates [S64x1, S64x1] S64x2 1
  shapeCasts_S5000x64_S5000x64 : S5000x64.ShapeCasts S5000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S5000x2_S5000x2_0_0 : ∀ a, (![0, 0] : Fin 2 → Nat) a + S5000x2.size a ≤ S5000x2.size a
  h_S5000x2 : 0 < S5000x2.numel
  slices_S100000x2_S100000x1_0_0 : S100000x2.Slices ![0, 0] S100000x1
  shapeCasts_S100000x1_S100000 : S100000x1.ShapeCasts S100000
  slices_S100000x2_S100000x1_0_1 : S100000x2.Slices ![0, 1] S100000x1
  concatenates_S2x1000000_S2x1000000_S2x2000000_d1 : Shape.Concatenates [S2x1000000, S2x1000000] S2x2000000 1
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  shapeCasts_S1_S_ : S1.ShapeCasts S_
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x64_S5000x64_1_0_0_1_n_n_wf : DotDims.WF S5000x16 S16x64 S5000x64 [1] [0] [0] [1] [] []
  dot_S5000x64_S64x2_S5000x2_1_0_0_1_n_n_wf : DotDims.WF S5000x64 S64x2 S5000x2 [1] [0] [0] [1] [] []
  gather_S100000_S2000000x1_S2000000_n_0_n_n_0_1_1_wf : GatherDims.WF S100000 S2000000x1 S2000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x64 : Shape := ⟨2, ![16, 64]⟩
abbrev S64 : Shape := ⟨1, ![64]⟩
abbrev S128x1 : Shape := ⟨2, ![128, 1]⟩
abbrev S1 : Shape := ⟨1, ![1]⟩
abbrev S2x3200000 : Shape := ⟨2, ![2, 3200000]⟩
abbrev S2x1000000 : Shape := ⟨2, ![2, 1000000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S64x1 : Shape := ⟨2, ![64, 1]⟩
abbrev S1x1 : Shape := ⟨2, ![1, 1]⟩
abbrev S2000000x1 : Shape := ⟨2, ![2000000, 1]⟩

abbrev nBuf : Space → Nat
  | .hbm => 180
  | .vmem => 0
  | .smem => 0
  | _ => 0

abbrev hbmTy0_0 (i : Nat) : BufTy := match i % 128 with
  | 0 => ⟨S100000x512, .f32⟩
  | 1 => ⟨S512x16, .f32⟩
  | 2 => ⟨S16, .f32⟩
  | 3 => ⟨S16x64, .f32⟩
  | 4 => ⟨S64, .f32⟩
  | 5 => ⟨S128x1, .f32⟩
  | 6 => ⟨S1, .f32⟩
  | 7 => ⟨S2x3200000, .i32⟩
  | 8 => ⟨S2x1000000, .i32⟩
  | 9 => ⟨S2x1000000, .i32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S100000, .f32⟩
  | 24 => ⟨S_, .i32⟩
  | 25 => ⟨S3300000, .i32⟩
  | 26 => ⟨S3300000, .i1⟩
  | 27 => ⟨S_, .i32⟩
  | 28 => ⟨S3300000, .i32⟩
  | 29 => ⟨S3300000, .i32⟩
  | 30 => ⟨S3300000, .i32⟩
  | 31 => ⟨S3300000x1, .i32⟩
  | 32 => ⟨S3300000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S3300000, .f32⟩
  | 43 => ⟨S100000x16, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000x16, .f32⟩
  | 53 => ⟨S3300000x1, .f32⟩
  | 54 => ⟨S3300000x16, .f32⟩
  | 55 => ⟨S3300000x16, .f32⟩
  | 56 => ⟨S_, .f32⟩
  | 57 => ⟨S100000x16, .f32⟩
  | 58 => ⟨S3300000x1, .i32⟩
  | 59 => ⟨S100000x16, .f32⟩
  | 60 => ⟨S1x16, .f32⟩
  | 61 => ⟨S100000x16, .f32⟩
  | 62 => ⟨S100000x16, .f32⟩
  | 63 => ⟨S_, .f32⟩
  | 64 => ⟨S100000x16, .f32⟩
  | 65 => ⟨S100000x16, .f32⟩
  | 66 => ⟨S100000, .i32⟩
  | 67 => ⟨S1x3200000, .i32⟩
  | 68 => ⟨S3200000, .i32⟩
  | 69 => ⟨S3300000, .i32⟩
  | 70 => ⟨S1x3200000, .i32⟩
  | 71 => ⟨S3200000, .i32⟩
  | 72 => ⟨S3300000, .i32⟩
  | 73 => ⟨S_, .f32⟩
  | 74 => ⟨S3300000, .f32⟩
  | 75 => ⟨S_, .f32⟩
  | 76 => ⟨S100000, .f32⟩
  | 77 => ⟨S3300000x1, .i32⟩
  | 78 => ⟨S100000, .f32⟩
  | 79 => ⟨S100000, .f32⟩
  | 80 => ⟨S_, .i32⟩
  | 81 => ⟨S3300000, .i32⟩
  | 82 => ⟨S3300000, .i1⟩
  | 83 => ⟨S_, .i32⟩
  | 84 => ⟨S3300000, .i32⟩
  | 85 => ⟨S3300000, .i32⟩
  | 86 => ⟨S3300000, .i32⟩
  | 87 => ⟨S3300000x1, .i32⟩
  | 88 => ⟨S3300000, .f32⟩
  | 89 => ⟨S_, .i32⟩
  | 90 => ⟨S3300000, .i32⟩
  | 91 => ⟨S3300000, .i1⟩
  | 92 => ⟨S_, .i32⟩
  | 93 => ⟨S3300000, .i32⟩
  | 94 => ⟨S3300000, .i32⟩
  | 95 => ⟨S3300000, .i32⟩
  | 96 => ⟨S3300000x1, .i32⟩
  | 97 => ⟨S3300000, .f32⟩
  | 98 => ⟨S3300000, .f32⟩
  | 99 => ⟨S100000x64, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000x64, .f32⟩
  | 109 => ⟨S3300000x1, .f32⟩
  | 110 => ⟨S3300000x64, .f32⟩
  | 111 => ⟨S3300000x64, .f32⟩
  | 112 => ⟨S_, .f32⟩
  | 113 => ⟨S100000x64, .f32⟩
  | 114 => ⟨S3300000x1, .i32⟩
  | 115 => ⟨S100000x64, .f32⟩
  | 116 => ⟨S1x64, .f32⟩
  | 117 => ⟨S100000x64, .f32⟩
  | 118 => ⟨S100000x64, .f32⟩
  | 119 => ⟨S1x1000000, .i32⟩
  | 120 => ⟨S1000000, .i32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S100000x512, .f32⟩

abbrev hbmTy0_1 (i : Nat) : BufTy := match i % 128 with
  | 0 => ⟨S1000000x1, .i32⟩
  | 1 => ⟨S1000000x64, .f32⟩
  | 2 => ⟨S64x1, .f32⟩
  | 3 => ⟨S1000000x1, .f32⟩
  | 4 => ⟨S1x1000000, .i32⟩
  | 5 => ⟨S1000000, .i32⟩
  | 6 => ⟨S_, .i32⟩
  | 7 => ⟨S1000000, .i32⟩
  | 8 => ⟨S1000000, .i1⟩
  | 9 => ⟨S_, .i32⟩
  | 10 => ⟨S1000000, .i32⟩
  | 11 => ⟨S1000000, .i32⟩
  | 12 => ⟨S1000000, .i32⟩
  | 13 => ⟨S1000000x1, .i32⟩
  | 14 => ⟨S1000000x64, .f32⟩
  | 15 => ⟨S64x1, .f32⟩
  | 16 => ⟨S1000000x1, .f32⟩
  | 17 => ⟨S1000000x1, .f32⟩
  | 18 => ⟨S1x1, .f32⟩
  | 19 => ⟨S1000000x1, .f32⟩
  | 20 => ⟨S1000000x1, .f32⟩
  | 21 => ⟨S1x1000000, .i32⟩
  | 22 => ⟨S1000000, .i32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x64, .f32⟩
  | 32 => ⟨S64x1, .f32⟩
  | 33 => ⟨S1000000x1, .f32⟩
  | 34 => ⟨S1x1000000, .i32⟩
  | 35 => ⟨S1000000, .i32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000x64, .f32⟩
  | 45 => ⟨S64x1, .f32⟩
  | 46 => ⟨S1000000x1, .f32⟩
  | 47 => ⟨S1000000x1, .f32⟩
  | 48 => ⟨S1x1, .f32⟩
  | 49 => ⟨S1000000x1, .f32⟩
  | 50 => ⟨S1000000x1, .f32⟩
  | 51 => ⟨S2000000x1, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_9 : Ref sig .tc := ⟨.hbm, 80, rfl⟩
abbrev main_v57 : Ref sig .tc := ⟨.hbm, 81, rfl⟩
abbrev main_v58 : Ref sig .tc := ⟨.hbm, 82, rfl⟩
abbrev main_c_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_11 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_13 : Ref sig .tc := ⟨.hbm, 100, rfl⟩
abbrev main_v73 : Ref sig .tc := ⟨.hbm, 101, rfl⟩
abbrev main_v74 : Ref sig .tc := ⟨.hbm, 102, rfl⟩
abbrev main_c_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_15 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_16 : Ref sig .tc := ⟨.hbm, 121, rfl⟩
abbrev main_v91 : Ref sig .tc := ⟨.hbm, 122, rfl⟩
abbrev main_v92 : Ref sig .tc := ⟨.hbm, 123, rfl⟩
abbrev main_c_17 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_c_18 : Ref sig .tc := ⟨.hbm, 134, rfl⟩
abbrev main_v102 : Ref sig .tc := ⟨.hbm, 135, rfl⟩
abbrev main_v103 : Ref sig .tc := ⟨.hbm, 136, rfl⟩
abbrev main_c_19 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_c_20 : Ref sig .tc := ⟨.hbm, 151, rfl⟩
abbrev main_v117 : Ref sig .tc := ⟨.hbm, 152, rfl⟩
abbrev main_v118 : Ref sig .tc := ⟨.hbm, 153, rfl⟩
abbrev main_c_21 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_c_22 : Ref sig .tc := ⟨.hbm, 164, rfl⟩
abbrev main_v128 : Ref sig .tc := ⟨.hbm, 165, rfl⟩
abbrev main_v129 : Ref sig .tc := ⟨.hbm, 166, rfl⟩
abbrev main_c_23 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S128x1_S64x1_0_0 : S128x1.Slices ![0, 0] S64x1
  slices_S2x1000000_S1x1000000_1_0 : S2x1000000.Slices ![1, 0] S1x1000000
  slices_S128x1_S64x1_64_0 : S128x1.Slices ![64, 0] S64x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  concatenates_S1000000x1_S1000000x1_S2000000x1_d0 : Shape.Concatenates [S1000000x1, S1000000x1] S2000000x1 0
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  gather_S100000x64_S1000000x1_S1000000x64_1_0_n_n_0_1_164_wf : GatherDims.WF S100000x64 S1000000x1 S1000000x64 [1] [0] [] [0] [] 1 ![1, 64]
  dot_S1000000x64_S64x1_S1000000x1_1_0_0_1_n_n_wf : DotDims.WF S1000000x64 S64x1 S1000000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.LibRealChain.lean ====
/-
  "Being a real" is preserved along a dense layer and a softmax read on the extended reals.

  An extended real `x` IS A REAL when `x = ↑r` for some `r : ℝ`, equivalently `x ≠ ⊤ ∧ x ≠ ⊥`; it is a
  POSITIVE REAL when moreover `0 < r`. The operations below are the scalar operations of the ideal
  float instance: EReal's `+`, `-`, `*`, `max`, `min`, unary `-`, and `Ideal.tanh`, `Ideal.exp`,
  `Ideal.div`. Each step keeps the value a real:

    • a finite sum of reals, of products of reals, and a real added to it (a dense layer's row);
    • `tanh` of a real (`Real.tanh`);
    • the maximum of two reals, a difference of reals (a softmax's shift by the row maximum);
    • `exp` of a real is a POSITIVE real (`Real.exp`);
    • a nonempty finite sum of positive reals is a positive real (the softmax's denominator);
    • a real divided by a positive real (by a nonzero real) is a real, and it is `↑(a / b)`.
-/
import Idealize.ShloMosaic.PureOps.Ideal
import Mathlib.Data.Finset.Fold

namespace Cert.Lib

open Idealize.ShloMosaic
open scoped BigOperators

/-- An extended real that is (the coercion of) a real. -/
def IsReal (x : EReal) : Prop := ∃ r : ℝ, x = (r : EReal)

/-- An extended real that is a positive real. -/
def IsPosReal (x : EReal) : Prop := ∃ r : ℝ, 0 < r ∧ x = (r : EReal)

/-- Being a real is being neither infinity. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

/-- A coerced real is a real. -/
theorem isReal_coe (r : ℝ) : IsReal (r : EReal) := ⟨r, rfl⟩

/-- Zero is a real. -/
theorem isReal_zero : IsReal 0 := ⟨0, EReal.coe_zero.symm⟩

/-- One is a real. -/
theorem isReal_one : IsReal 1 := ⟨1, EReal.coe_one.symm⟩

/-- A real is the coercion of its real part. -/
theorem IsReal.coe_toReal {x : EReal} (h : IsReal x) : ((x.toReal : ℝ) : EReal) = x := by
  obtain ⟨r, rfl⟩ := h; rw [EReal.toReal_coe]

theorem IsReal.ne_top {x : EReal} (h : IsReal x) : x ≠ ⊤ := (isReal_iff.mp h).1
theorem IsReal.ne_bot {x : EReal} (h : IsReal x) : x ≠ ⊥ := (isReal_iff.mp h).2

/-- A positive real is a real. -/
theorem IsPosReal.isReal {x : EReal} (h : IsPosReal x) : IsReal x := by
  obtain ⟨r, _, rfl⟩ := h; exact ⟨r, rfl⟩

/-- A positive real is above zero. -/
theorem IsPosReal.pos {x : EReal} (h : IsPosReal x) : 0 < x := by
  obtain ⟨r, hr, rfl⟩ := h; exact EReal.coe_pos.mpr hr

/-- A positive real is not zero. -/
theorem IsPosReal.ne_zero {x : EReal} (h : IsPosReal x) : x ≠ 0 := h.pos.ne'

/-- A positive real is a real above zero, and conversely. -/
theorem isPosReal_iff {x : EReal} : IsPosReal x ↔ IsReal x ∧ 0 < x := by
  constructor
  · intro h; exact ⟨h.isReal, h.pos⟩
  · rintro ⟨⟨r, rfl⟩, h⟩; exact ⟨r, EReal.coe_pos.mp h, rfl⟩

/-- The sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is a real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is a real. -/
theorem IsReal.neg {x : EReal} (hx : IsReal x) : IsReal (-x) := by
  obtain ⟨a, rfl⟩ := hx; exact ⟨-a, (EReal.coe_neg a).symm⟩

/-- The maximum of two reals is a real. -/
theorem IsReal.max {x y : EReal} (hx : IsReal x) (hy : IsReal y) : IsReal (max x y) := by
  rcases max_choice x y with h | h <;> rw [h] <;> assumption

/-- The minimum of two reals is a real. -/
theorem IsReal.min {x y : EReal} (hx : IsReal x) (hy : IsReal y) : IsReal (min x y) := by
  rcases min_choice x y with h | h <;> rw [h] <;> assumption

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum of reals over a whole finite type is a real. -/
theorem IsReal.sum_univ {ι : Type*} [Fintype ι] (f : ι → EReal) (h : ∀ i, IsReal (f i)) :
    IsReal (∑ i, f i) :=
  IsReal.sum Finset.univ f fun i _ => h i

/-- A finite sum of products of reals (a row of a dense layer before its bias) is a real. -/
theorem IsReal.sum_mul {ι : Type*} (s : Finset ι) (f g : ι → EReal) (hf : ∀ i ∈ s, IsReal (f i))
    (hg : ∀ i ∈ s, IsReal (g i)) : IsReal (∑ i ∈ s, f i * g i) :=
  IsReal.sum s _ fun i hi => (hf i hi).mul (hg i hi)

/-- The same over a whole finite type. -/
theorem IsReal.sum_univ_mul {ι : Type*} [Fintype ι] (f g : ι → EReal) (hf : ∀ i, IsReal (f i))
    (hg : ∀ i, IsReal (g i)) : IsReal (∑ i, f i * g i) :=
  IsReal.sum_univ _ fun i => (hf i).mul (hg i)

/-- An accumulator plus a sum of products, all real (a contraction onto a real accumulator), is a real. -/
theorem IsReal.add_sum_univ_mul {ι : Type*} [Fintype ι] {acc : EReal} (hacc : IsReal acc) (f g : ι → EReal)
    (hf : ∀ i, IsReal (f i)) (hg : ∀ i, IsReal (g i)) : IsReal (acc + ∑ i, f i * g i) :=
  hacc.add (IsReal.sum_univ_mul f g hf hg)

/-- `tanh` of a real is a real: the ideal `tanh` is `Real.tanh` on the reals. -/
theorem IsReal.tanh {x : EReal} (hx : IsReal x) : IsReal (Ideal.tanh x) := by
  obtain ⟨a, rfl⟩ := hx; exact ⟨Real.tanh a, rfl⟩

/-- `exp` of a real is a positive real: the ideal `exp` is `Real.exp` on the reals. -/
theorem IsReal.exp {x : EReal} (hx : IsReal x) : IsPosReal (Ideal.exp x) := by
  obtain ⟨a, rfl⟩ := hx; exact ⟨Real.exp a, Real.exp_pos a, rfl⟩

/-- The sum of two positive reals is a positive real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive reals is a positive real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-- A nonempty finite sum of positive reals (a softmax's denominator) is a positive real. -/
theorem IsPosReal.sum {ι : Type*} {s : Finset ι} (hs : s.Nonempty) (f : ι → EReal)
    (h : ∀ i ∈ s, IsPosReal (f i)) : IsPosReal (∑ i ∈ s, f i) := by
  induction hs using Finset.Nonempty.cons_induction with
  | singleton a => rw [Finset.sum_singleton]; exact h a (Finset.mem_singleton_self a)
  | cons a s ha hs ih =>
    rw [Finset.sum_cons]
    exact (h a (Finset.mem_cons_self a s)).add (ih fun i hi => h i (Finset.mem_cons.mpr (Or.inr hi)))

/-- The same over a whole nonempty finite type. -/
theorem IsPosReal.sum_univ {ι : Type*} [Fintype ι] [Nonempty ι] (f : ι → EReal) (h : ∀ i, IsPosReal (f i)) :
    IsPosReal (∑ i, f i) :=
  IsPosReal.sum Finset.univ_nonempty f fun i _ => h i

/-- The ideal quotient of two coerced reals, the divisor nonzero, is the coerced real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A real divided by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- A real divided by a positive real (a softmax's numerator by its denominator) is a real. -/
theorem IsReal.div_pos {x y : EReal} (hx : IsReal x) (hy : IsPosReal y) : IsReal (Ideal.div x y) :=
  hx.div hy.isReal hy.ne_zero

/-- A positive real divided by a positive real is a positive real. -/
theorem IsPosReal.div {x y : EReal} (hx : IsPosReal x) (hy : IsPosReal y) : IsPosReal (Ideal.div x y) := by
  obtain ⟨a, ha, rfl⟩ := hx; obtain ⟨b, hb, rfl⟩ := hy
  exact ⟨a / b, _root_.div_pos ha hb, div_coe_coe a hb.ne'⟩

/-- The fold of `max` over a nonempty finite family of reals, from an initial value that is not `⊤`
    (a row maximum taken from `-∞` or from a real), is a real. -/
theorem IsReal.fold_max {ι : Type*} {s : Finset ι} (hs : s.Nonempty) (f : ι → EReal) {b : EReal} (hb : b ≠ ⊤)
    (h : ∀ i ∈ s, IsReal (f i)) : IsReal (s.fold Max.max b f) := by
  rw [isReal_iff]
  constructor
  · exact ((Finset.fold_max_lt _).mpr ⟨lt_top_iff_ne_top.mpr hb, fun i hi => lt_top_iff_ne_top.mpr (h i hi).ne_top⟩).ne
  · obtain ⟨i, hi⟩ := hs
    exact ((Finset.lt_fold_max _).mpr (Or.inr ⟨i, hi, bot_lt_iff_ne_bot.mpr (h i hi).ne_bot⟩)).ne'

end Cert.Lib
-- ==== Proof.FiniteArgs.lean ====
/-
  From the precondition "every float argument is finite" to "every entry of every float argument is a real".

  The precondition's predicate is, for each of the seven float arguments `a`, the reduction by `and` over all axes of
  the array of comparisons `|a i| < +∞`, and the conjunction of the seven results. The conjunction being 1, each
  reduction is 1; a reduction by `and` that started at 1 and came out 1 met only 1s, so every comparison is 1; and
  `max x (-x) < ⊤` on the extended reals says that `x` is neither `⊤` nor `⊥`, that is, a real.
-/
import proofs.«104134_j25340307046431_2_alg».proof.Defs
import proofs.«104134_j25340307046431_2_alg».proof.Proof.LibRealChain
import Idealize.ShloMosaic.Lib.ReduceAll
import Idealize.ShloMosaic.Lib.IdealHost

namespace Cert.KernelIdeal.Finite

open Idealize.ShloMosaic Idealize.SL.Sem
open Cert.Lib (IsReal)

/-- The scalar shape has one index. -/
instance subsingleton_scalarIdx : Subsingleton Cert.Pre_finite_inputs.S_.Idx :=
  ⟨fun a b => funext fun d => d.elim0⟩

/-- The f32 pattern `0x7F800000` is `+∞`. -/
theorem ofBits_inf : Ideal.ofBits .f32 0x7F800000#32 = (⊤ : EReal) := by
  simp [Ideal.ofBits, Ideal.ieee]

/-- An extended real whose absolute value `max x (-x)` is below `+∞` is a real. -/
theorem isReal_of_abs_lt_top (x : EReal) (h : max x (-x) < ⊤) : IsReal x := by
  induction x using EReal.rec with
  | bot => simp at h
  | coe r => exact ⟨r, rfl⟩
  | top => simp at h

/-- The comparison `|x| < +∞` of the ideal instance being 1 says that `x` is a real. -/
theorem isReal_of_cmp (x : Ideal .f32)
    (h : FloatOps.cmpf (F := Ideal) .olt (FloatOps.hostAbsf x) (FloatOps.ofBits .f32 0x7F800000#32) = 1#1) :
    IsReal x := by
  apply isReal_of_abs_lt_top
  change Ideal.cmp .olt (max x (-x)) (Ideal.ofBits .f32 0x7F800000#32) = 1#1 at h
  rw [ofBits_inf] at h
  by_contra hn
  have : Ideal.cmp .olt (max x (-x)) ⊤ = 0#1 := by
    unfold Ideal.cmp
    simp only [decide_eq_false hn]
    rfl
  rw [this] at h
  exact absurd h (by decide)

/-- Every entry of a float array whose test "all of `|a| < +∞`" (the reduction by `and`, over all axes, of the
    comparisons) is 1 is a real. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf a)
            (broadcastInDim s ![] hb (constant (F := Ideal) Cert.Pre_finite_inputs.S_ .f32 0x7F800000#32)))
          init hr hu j = 1#1) (i : s.Idx) : IsReal (a i) := by
  have h := Host.reduce_andi_all _ init hr hu j e i
  exact isReal_of_cmp (a i) h

/-- A family of extended reals that are all reals is the coercion of a family of reals. -/
theorem exists_real_fun {ι : Type*} {a : ι → EReal} (h : ∀ i, IsReal (a i)) :
    ∃ r : ι → ℝ, a = fun i => ((r i : ℝ) : EReal) :=
  ⟨fun i => (h i).choose, funext fun i => (h i).choose_spec⟩

/-- The conjunction of two `i1` arrays being 1 at an index, both are 1 there. -/
theorem andi_apply_eq_one {s : Shape} (x y : IVec s 1) (i : s.Idx) (h : andi x y i = 1#1) :
    x i = 1#1 ∧ y i = 1#1 := IntOp.andi_eq_one.1 h

section Core
variable [Cert.Pre_finite_inputs.Facts]

/-- The precondition's predicate being 1, every entry of each of the seven float arguments is a real (the three index
    arrays are not constrained). -/
theorem real_of_fn
    (a0 : FVec Ideal Cert.Pre_finite_inputs.S100000x512 .f32) (a1 : FVec Ideal Cert.Pre_finite_inputs.S512x16 .f32)
    (a2 : FVec Ideal Cert.Pre_finite_inputs.S16 .f32) (a3 : FVec Ideal Cert.Pre_finite_inputs.S16x64 .f32)
    (a4 : FVec Ideal Cert.Pre_finite_inputs.S64 .f32) (a5 : FVec Ideal Cert.Pre_finite_inputs.S128x1 .f32)
    (a6 : FVec Ideal Cert.Pre_finite_inputs.S1 .f32) (a7 : IVec Cert.Pre_finite_inputs.S2x3200000 32)
    (a8 : IVec Cert.Pre_finite_inputs.S2x1000000 32) (a9 : IVec Cert.Pre_finite_inputs.S2x1000000 32)
    (h : Cert.Pre_finite_inputs.fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) := by
  have h0 := congrFun h ValueIdx.ix0
  dsimp only [Cert.Pre_finite_inputs.fn, Cert.Pre_finite_inputs.fn_part1] at h0
  obtain ⟨h28, h32⟩ := andi_apply_eq_one _ _ _ h0
  obtain ⟨h23, h27⟩ := andi_apply_eq_one _ _ _ h28
  obtain ⟨h18, h22⟩ := andi_apply_eq_one _ _ _ h23
  obtain ⟨h13, h17⟩ := andi_apply_eq_one _ _ _ h18
  obtain ⟨h8, h12⟩ := andi_apply_eq_one _ _ _ h13
  obtain ⟨h3, h7⟩ := andi_apply_eq_one _ _ _ h8
  exact ⟨all_real a0 _ _ _ _ _ h3, all_real a1 _ _ _ _ _ h7, all_real a2 _ _ _ _ _ h12,
    all_real a3 _ _ _ _ _ h17, all_real a4 _ _ _ _ _ h22, all_real a5 _ _ _ _ _ h27,
    all_real a6 _ _ _ _ _ h32⟩

end Core

section AtMemory
variable [Cert.Pre_finite_inputs.Facts]
  (m : (ℓ : Loc Cert.KernelIdeal.nD Cert.KernelIdeal.τ Cert.KernelIdeal.sig) → Buf (Elt Ideal) ℓ)

/-- Under the precondition, on every device, every entry of each of the seven float arguments is a real. -/
theorem real_args (h : Cert.Pre_KernelIdeal m) (c : Dev Cert.KernelIdeal.nD) :
    (∀ i, IsReal ((m ((c.tc : Thread Cert.KernelIdeal.nD Cert.KernelIdeal.τ).loc Cert.KernelIdeal.main_arg0)) i))
      ∧ (∀ i, IsReal ((m ((c.tc : Thread Cert.KernelIdeal.nD Cert.KernelIdeal.τ).loc Cert.KernelIdeal.main_arg1)) i))
      ∧ (∀ i, IsReal ((m ((c.tc : Thread Cert.KernelIdeal.nD Cert.KernelIdeal.τ).loc Cert.KernelIdeal.main_arg2)) i))
      ∧ (∀ i, IsReal ((m ((c.tc : Thread Cert.KernelIdeal.nD Cert.KernelIdeal.τ).loc Cert.KernelIdeal.main_arg3)) i))
      ∧ (∀ i, IsReal ((m ((c.tc : Thread Cert.KernelIdeal.nD Cert.KernelIdeal.τ).loc Cert.KernelIdeal.main_arg4)) i))
      ∧ (∀ i, IsReal ((m ((c.tc : Thread Cert.KernelIdeal.nD Cert.KernelIdeal.τ).loc Cert.KernelIdeal.main_arg5)) i))
      ∧ (∀ i, IsReal ((m ((c.tc : Thread Cert.KernelIdeal.nD Cert.KernelIdeal.τ).loc Cert.KernelIdeal.main_arg6)) i)) :=
  real_of_fn _ _ _ _ _ _ _ _ _ _ (h c)

/-- Every entry of float argument 0 is a real. -/
theorem real_arg0 (h : Cert.Pre_KernelIdeal m) (c : Dev Cert.KernelIdeal.nD) :
    ∀ i, IsReal ((m ((c.tc : Thread Cert.KernelIdeal.nD Cert.KernelIdeal.τ).loc Cert.KernelIdeal.main_arg0)) i) :=
  (real_args m h c).1

/-- Every entry of float argument 1 is a real. -/
theorem real_arg1 (h : Cert.Pre_KernelIdeal m) (c : Dev Cert.KernelIdeal.nD) :
    ∀ i, IsReal ((m ((c.tc : Thread Cert.KernelIdeal.nD Cert.KernelIdeal.τ).loc Cert.KernelIdeal.main_arg1)) i) :=
  (real_args m h c).2.1

/-- Every entry of float argument 2 is a real. -/
theorem real_arg2 (h : Cert.Pre_KernelIdeal m) (c : Dev Cert.KernelIdeal.nD) :
    ∀ i, IsReal ((m ((c.tc : Thread Cert.KernelIdeal.nD Cert.KernelIdeal.τ).loc Cert.KernelIdeal.main_arg2)) i) :=
  (real_args m h c).2.2.1

/-- Every entry of float argument 3 is a real. -/
theorem real_arg3 (h : Cert.Pre_KernelIdeal m) (c : Dev Cert.KernelIdeal.nD) :
    ∀ i, IsReal ((m ((c.tc : Thread Cert.KernelIdeal.nD Cert.KernelIdeal.τ).loc Cert.KernelIdeal.main_arg3)) i) :=
  (real_args m h c).2.2.2.1

/-- Every entry of float argument 4 is a real. -/
theorem real_arg4 (h : Cert.Pre_KernelIdeal m) (c : Dev Cert.KernelIdeal.nD) :
    ∀ i, IsReal ((m ((c.tc : Thread Cert.KernelIdeal.nD Cert.KernelIdeal.τ).loc Cert.KernelIdeal.main_arg4)) i) :=
  (real_args m h c).2.2.2.2.1

/-- Every entry of float argument 5 is a real. -/
theorem real_arg5 (h : Cert.Pre_KernelIdeal m) (c : Dev Cert.KernelIdeal.nD) :
    ∀ i, IsReal ((m ((c.tc : Thread Cert.KernelIdeal.nD Cert.KernelIdeal.τ).loc Cert.KernelIdeal.main_arg5)) i) :=
  (real_args m h c).2.2.2.2.2.1

/-- Every entry of float argument 6 is a real. -/
theorem real_arg6 (h : Cert.Pre_KernelIdeal m) (c : Dev Cert.KernelIdeal.nD) :
    ∀ i, IsReal ((m ((c.tc : Thread Cert.KernelIdeal.nD Cert.KernelIdeal.τ).loc Cert.KernelIdeal.main_arg6)) i) :=
  (real_args m h c).2.2.2.2.2.2

end AtMemory

end Cert.KernelIdeal.Finite
-- ==== Proof.KernelRun.lean ====
/-
  The idealized kernel's run with every buffer named.

  The program is three tiled matrix products among four stretches of host operations. Its run ends, on every core,
  with every buffer that outlives the launch at the contents obtained by folding the segments over the launch
  memory: a stretch of host operations applies its operations, a region leaves its arrays at what its write-backs
  leave. This module states that run with the whole final valuation in its post; the modules after it read the two
  result buffers out of that valuation.
-/
import proofs.«104134_j25340307046431_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel terminates, nothing faulting, and in every final state each buffer
    that outlives the launch holds the segments' fold of the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.KRun

end
-- ==== Proof.KernelFoldArgs.lean ====
/-
  Reading the kernel's final valuation, part one: what passes through unchanged.

  The final valuation is a fold over the program's segments. A stretch of host operations leaves alone every
  buffer it does not write; a region leaves alone every buffer that is not one of its arrays, and leaves an
  INPUT array as it found it. So an argument of the program is read back through the whole fold to the launch
  memory, and the first result (the node embeddings: the second product plus the second bias row) is read back
  from the end of the program to the stretch that computed it.
-/
import proofs.«104134_j25340307046431_2_alg».proof.Proof.Gen.KernelIdeal.Frame

set_option maxRecDepth 16384

noncomputable section

namespace Cert.KernelIdeal.KFold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- A stretch of host operations leaves a buffer none of them writes as it was. -/
macro "host_skip" : tactic => `(tactic|
  (refine StableHlo.after_of_forall_not_mem _ _ (List.forall_iff_forall_mem.mp ?_)
   simp only [hostOps0, hostOps1, hostOps1_1, hostOps1_2, hostOps2, hostOps3, List.flatten_cons, List.flatten_nil,
     List.append_nil, List.cons_append, List.nil_append, List.Forall, StableHlo.nullary_writes, StableHlo.unary_writes,
     StableHlo.binary_writes, StableHlo.ternary_writes, StableHlo.quaternary_writes, StableHlo.reshape_writes,
     StableHlo.binaryIndexed_writes, Finset.mem_singleton]
   repeat' apply And.intro
   all_goals exact StableHlo.devRef_ne_of_ne (by decide)))

/-! ## The arguments, at each boundary where a later segment reads them -/

theorem W1_arg0 : W1 m ρ c (Proc.devRef .tc main_arg0) = m ((c : Thread nD τ).loc main_arg0) :=
  calc W1 m ρ c (Proc.devRef .tc main_arg0) = W0 m ρ c (Proc.devRef .tc main_arg0) := by host_skip
    _ = _ := rfl

theorem W1_arg1 : W1 m ρ c (Proc.devRef .tc main_arg1) = m ((c : Thread nD τ).loc main_arg1) :=
  calc W1 m ρ c (Proc.devRef .tc main_arg1) = W0 m ρ c (Proc.devRef .tc main_arg1) := by host_skip
    _ = _ := rfl

theorem W2_arg2 : W2 m ρ c (Proc.devRef .tc main_arg2) = m ((c : Thread nD τ).loc main_arg2) :=
  calc W2 m ρ c (Proc.devRef .tc main_arg2) = W1 m ρ c (Proc.devRef .tc main_arg2) := W2_of_ne m ρ c main_arg2 (by decide)
    _ = W0 m ρ c (Proc.devRef .tc main_arg2) := by host_skip
    _ = _ := rfl

theorem W5_arg3 : W5 m ρ c (Proc.devRef .tc main_arg3) = m ((c : Thread nD τ).loc main_arg3) :=
  calc W5 m ρ c (Proc.devRef .tc main_arg3) = W4 m ρ c (Proc.devRef .tc main_arg3) := by host_skip
    _ = W3 m ρ c (Proc.devRef .tc main_arg3) := by host_skip
    _ = W2 m ρ c (Proc.devRef .tc main_arg3) := by host_skip
    _ = W1 m ρ c (Proc.devRef .tc main_arg3) := W2_of_ne m ρ c main_arg3 (by decide)
    _ = W0 m ρ c (Proc.devRef .tc main_arg3) := by host_skip
    _ = _ := rfl

/-- An argument no region takes as an array and no host operation writes, read at region 1's exit. -/
theorem W6_of_arg (b : Ref sig .tc) (h0 : ∀ w, Pipeline.arrRef spec0 w ≠ b) (h1 : ∀ w, Pipeline.arrRef spec1 w ≠ b)
    (e5 : W5 m ρ c (Proc.devRef .tc b) = W4 m ρ c (Proc.devRef .tc b))
    (e4 : W4 m ρ c (Proc.devRef .tc b) = W3 m ρ c (Proc.devRef .tc b))
    (e3 : W3 m ρ c (Proc.devRef .tc b) = W2 m ρ c (Proc.devRef .tc b))
    (e1 : W1 m ρ c (Proc.devRef .tc b) = W0 m ρ c (Proc.devRef .tc b)) :
    W6 m ρ c (Proc.devRef .tc b) = W0 m ρ c (Proc.devRef .tc b) :=
  calc W6 m ρ c (Proc.devRef .tc b) = W5 m ρ c (Proc.devRef .tc b) := W6_of_ne m ρ c b h1
    _ = W4 m ρ c (Proc.devRef .tc b) := e5
    _ = W3 m ρ c (Proc.devRef .tc b) := e4
    _ = W2 m ρ c (Proc.devRef .tc b) := e3
    _ = W1 m ρ c (Proc.devRef .tc b) := W2_of_ne m ρ c b h0
    _ = W0 m ρ c (Proc.devRef .tc b) := e1

theorem W6_arg4 : W6 m ρ c (Proc.devRef .tc main_arg4) = m ((c : Thread nD τ).loc main_arg4) :=
  (W6_of_arg m ρ c main_arg4 (by decide) (by decide) (by host_skip) (by host_skip) (by host_skip) (by host_skip)).trans rfl

theorem W6_arg5 : W6 m ρ c (Proc.devRef .tc main_arg5) = m ((c : Thread nD τ).loc main_arg5) :=
  (W6_of_arg m ρ c main_arg5 (by decide) (by decide) (by host_skip) (by host_skip) (by host_skip) (by host_skip)).trans rfl

/-- The same, read at region 2's exit. -/
theorem W8_of_arg (b : Ref sig .tc) (h0 : ∀ w, Pipeline.arrRef spec0 w ≠ b) (h1 : ∀ w, Pipeline.arrRef spec1 w ≠ b)
    (h2 : ∀ w, Pipeline.arrRef spec2 w ≠ b)
    (e7 : W7 m ρ c (Proc.devRef .tc b) = W6 m ρ c (Proc.devRef .tc b))
    (e5 : W5 m ρ c (Proc.devRef .tc b) = W4 m ρ c (Proc.devRef .tc b))
    (e4 : W4 m ρ c (Proc.devRef .tc b) = W3 m ρ c (Proc.devRef .tc b))
    (e3 : W3 m ρ c (Proc.devRef .tc b) = W2 m ρ c (Proc.devRef .tc b))
    (e1 : W1 m ρ c (Proc.devRef .tc b) = W0 m ρ c (Proc.devRef .tc b)) :
    W8 m ρ c (Proc.devRef .tc b) = W0 m ρ c (Proc.devRef .tc b) :=
  calc W8 m ρ c (Proc.devRef .tc b) = W7 m ρ c (Proc.devRef .tc b) := W8_of_ne m ρ c b h2
    _ = W6 m ρ c (Proc.devRef .tc b) := e7
    _ = W0 m ρ c (Proc.devRef .tc b) := W6_of_arg m ρ c b h0 h1 e5 e4 e3 e1

theorem W8_arg6 : W8 m ρ c (Proc.devRef .tc main_arg6) = m ((c : Thread nD τ).loc main_arg6) :=
  (W8_of_arg m ρ c main_arg6 (by decide) (by decide) (by decide) (by host_skip) (by host_skip) (by host_skip) (by host_skip) (by host_skip)).trans rfl

theorem W8_arg8 : W8 m ρ c (Proc.devRef .tc main_arg8) = m ((c : Thread nD τ).loc main_arg8) :=
  (W8_of_arg m ρ c main_arg8 (by decide) (by decide) (by decide) (by host_skip) (by host_skip) (by host_skip) (by host_skip) (by host_skip)).trans rfl

theorem W8_arg9 : W8 m ρ c (Proc.devRef .tc main_arg9) = m ((c : Thread nD τ).loc main_arg9) :=
  (W8_of_arg m ρ c main_arg9 (by decide) (by decide) (by decide) (by host_skip) (by host_skip) (by host_skip) (by host_skip) (by host_skip)).trans rfl

/-! ## The first result: read back to the stretch between the second and the third product -/

/-- The node embeddings at the end of the program are what the stretch after the second product left: the third
    product takes them as an input array, and no later host operation writes them. -/
theorem W9_v60 : W9 m ρ c (Proc.devRef .tc main_v60) = W7 m ρ c (Proc.devRef .tc main_v60) :=
  calc W9 m ρ c (Proc.devRef .tc main_v60) = W8 m ρ c (Proc.devRef .tc main_v60) := by host_skip
    _ = W7 m ρ c (Proc.devRef .tc main_v60) :=
      (W8_arr m ρ c 0).trans (((dat2 (V7 m ρ) c).arrAt_in 0 rfl _).trans (A_eq2 (V7 m ρ) c 0))

end Cert.KernelIdeal.KFold

end
-- ==== Proof.LibMatmulBlock.lean ====
/-
  One block of a matrix product, entry by entry.

  A product of an m×k array by a k×n array, contracted over the left operand's second axis and the right operand's
  first, and accumulated into the all-zero array, has at entry (a, b) the value ∑_c A[a, c] · B[c, b] over the
  extended reals. The contraction's index set has one axis of extent k, so the sum over it is re-indexed by that
  axis's coordinate.
-/
import Idealize.ShloMosaic.PureOps.Ideal
import Idealize.ShloMosaic.PureOps.Ideal.Laws
import Idealize.ShloMosaic.Lib.ValueIdx

noncomputable section

namespace Cert.LibMatmulBlock

open Idealize.ShloMosaic Idealize.ShloMosaic.ValueIdx

/-- The product of an m×k block by a k×n block accumulated into the zero splat, read at entry (a, b), is the sum over
    the contracted coordinate c of A[a, c] · B[c, b]. At the ideal values; `w` is the dimension numbers'
    well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulBlock

end
-- ==== Proof.RegionArrays.lean ====
/-
  The three tiled matrix products, array by array.

  Each of the three regions multiplies a [100000, K] array by a [K, N] array in 20 row blocks of 5000 rows: at point t
  it reads row block t of the left array and the whole right array, and writes row block t of the result. A block's
  entry (a, b) is the sum over k of left[a, k] · right[k, b] on the extended reals, so what point t writes is row block
  t of the whole product; the 20 row blocks cover the result, hence after the last point the result array IS the whole
  product, entry (p, q) = ∑ k, left[p, k] · right[k, q]. All at an arbitrary contents `V` of the buffers when the
  region is entered, at the ideal values. Regions: K = 512, N = 16; K = 16, N = 64; K = 64, N = 2.
-/
import proofs.«104134_j25340307046431_2_alg».proof.Proof.Gen.KernelIdeal.Frame
import proofs.«104134_j25340307046431_2_alg».proof.Proof.LibMatmulBlock
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

-- the buffers' contents when a region is entered
variable (V : (c : Dev nD) → (b : Ref sig .tc) → Buf (Elt Ideal) ((c : Thread nD τ).loc b))

/-- The zero offsets of a whole-block load or store, as a constant function. -/
theorem offsets_zero : (![0, 0] : Fin 2 → Nat) = fun _ => 0 := funext fun a => by fin_cases a <;> rfl

/-! ## Region 0: the [100000, 512] array times the [512, 16] array -/

/-- One entry of a block of the first product: the block's row of the left operand times the column of the right
    operand, summed over the 512 contracted coordinates (the operands' change of format is the identity on the
    extended reals, and the accumulator starts at zero). -/
theorem pay0_apply (x0 : Vec Ideal S5000x512 .f32) (x1 : Vec Ideal S512x16 .f32) (a : Fin 5000) (b : Fin 16) :
    k0_pay1 x0 x1 (ix2 a b) = ∑ k : Fin 512, x0 (ix2 a k) * x1 (ix2 k b) := by
  unfold k0_pay1
  exact Cert.LibMatmulBlock.matmul_zero_apply _ none x0 x1 a b

/-- The same at any index of the block, through its two coordinates. -/
theorem pay0_entry (x0 : Vec Ideal S5000x512 .f32) (x1 : Vec Ideal S512x16 .f32) (y : S5000x16.Idx) :
    k0_pay1 x0 x1 y = ∑ k : Fin 512, x0 (ix2 (y 0) k) * x1 (ix2 k (y 1)) := by
  obtain ⟨a, b, rfl⟩ : ∃ (a : Fin 5000) (b : Fin 16), y = ix2 a b := ⟨y 0, y 1, eq_ix2 y⟩
  exact pay0_apply x0 x1 a b

/-- The whole product, entry by entry: entry (r, s) is the sum over k of A[r, k] · B[k, s]. -/
abbrev prod0 (A : S100000x512.Idx → EReal) (B : S512x16.Idx → EReal) : S100000x16.Idx → EReal :=
  fun i => ∑ k : Fin 512, A (ix2 (i 0) k) * B (ix2 k (i 1))

/-- The block indices over the grid: at point t the left operand's and the result's blocks are row block t, and the
    right operand's is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the result is some point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

/-- What point t writes back is row block t of the whole product of the operand arrays: row 5000·t + a of the left
    array is row a of its block t, and the right array is its own single block. -/
theorem flushed0_eq (c : Dev nD) (t : Fin cfg0.N) :
    (dat0 (F := Ideal) V c).flushed 2 t
      = ((cfg0.win 2).blk t).view.read (Elt Ideal) (prod0 (V c main_arg0) (V c main_arg1)) := by
  show (cfg0.win 2).cut (grid0.coords t) ((dat0 V c).after 2 t) = _
  rw [after0_2]
  unfold out0_2
  rw [View.canon_unit_zero offsets_zero]
  simp only [View.ld_unit_zero (S := S5000x512) offsets_zero, View.ld_unit_zero (S := S512x16) offsets_zero]
  obtain ⟨e0, e1, e2, e3, e4, e5⟩ := idx_facts0 t
  funext j
  refine (pay0_entry _ _ _).trans ?_
  show _ = prod0 (V c main_arg0) (V c main_arg1) (((cfg0.win 2).blk t).view.emb j)
  refine Finset.sum_congr rfl fun k _ => ?_
  congr 1
  · show V c main_arg0 (((cfg0.win 0).blk t).view.emb _) = V c main_arg0 _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  · show V c main_arg1 (((cfg0.win 1).blk t).view.emb _) = V c main_arg1 _
    congr 1
    funext a; apply Fin.ext
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega

/-- An index of the result array is in point t's block iff each coordinate is in the block's range on its axis. -/
theorem mem_blk0 (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v28).slice (win0_2.rect t)).set ↔ _
  rw [View.set_slice_whole, Rect.mem_set_unit]
  exact Iff.rfl

/-- The row blocks cover the result: row r lies in the block of point r / 5000. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- After all 20 points the first region's result array is the whole product of its two operand arrays as the region
    finds them. -/
theorem region0_array (c : Dev nD) :
    (dat0 (F := Ideal) V c).arrAt 2 cfg0.N = prod0 (V c main_arg0) (V c main_arg1) :=
  (dat0 (F := Ideal) V c).arrAt_eq_of_cover 2 (prod0 (V c main_arg0) (V c main_arg1)) (fun t _ => flushed0_eq V c t) cover0

/-- The same as an equation of functions of the index, the product written out. -/
theorem region0_array_fun (c : Dev nD) :
    (dat0 (F := Ideal) V c).arrAt 2 cfg0.N
      = fun i : S100000x16.Idx => ∑ k : Fin 512,
          @HMul.hMul EReal EReal EReal instHMul (V c main_arg0 (ix2 (i 0) k)) (V c main_arg1 (ix2 k (i 1))) :=
  region0_array V c

/-- Entry (p, q) of the first region's result array, for operand arrays known to be A and B. -/
theorem region0_entry_of (c : Dev nD) (A : S100000x512.Idx → EReal) (B : S512x16.Idx → EReal)
    (hA : V c main_arg0 = A) (hB : V c main_arg1 = B) (p : Fin 100000) (q : Fin 16) :
    (dat0 (F := Ideal) V c).arrAt 2 cfg0.N (ix2 p q) = ∑ k : Fin 512, A (ix2 p k) * B (ix2 k q) := by
  subst hA hB
  exact congrFun (region0_array V c) (ix2 p q)

/-- Entry (p, q) of the first region's result array: the sum over k of the left operand's (p, k) times the right
    operand's (k, q). -/
theorem region0_entry (c : Dev nD) (p : Fin 100000) (q : Fin 16) :
    (dat0 (F := Ideal) V c).arrAt 2 cfg0.N (ix2 p q)
      = ∑ k : Fin 512, @HMul.hMul EReal EReal EReal instHMul (V c main_arg0 (ix2 p k)) (V c main_arg1 (ix2 k q)) :=
  region0_entry_of V c _ _ rfl rfl p q

/-! ## Region 1: the [100000, 16] array times the [16, 64] array -/

/-- One entry of a block of the second product: the block's row of the left operand times the column of the right
    operand, summed over the 16 contracted coordinates (the operands' change of format is the identity on the
    extended reals, and the accumulator starts at zero). -/
theorem pay1_apply (x0 : Vec Ideal S5000x16 .f32) (x1 : Vec Ideal S16x64 .f32) (a : Fin 5000) (b : Fin 64) :
    k1_pay1 x0 x1 (ix2 a b) = ∑ k : Fin 16, x0 (ix2 a k) * x1 (ix2 k b) := by
  unfold k1_pay1
  simp only [shapeCast_self]
  exact Cert.LibMatmulBlock.matmul_zero_apply _ none x0 x1 a b

/-- The same at any index of the block, through its two coordinates. -/
theorem pay1_entry (x0 : Vec Ideal S5000x16 .f32) (x1 : Vec Ideal S16x64 .f32) (y : S5000x64.Idx) :
    k1_pay1 x0 x1 y = ∑ k : Fin 16, x0 (ix2 (y 0) k) * x1 (ix2 k (y 1)) := by
  obtain ⟨a, b, rfl⟩ : ∃ (a : Fin 5000) (b : Fin 64), y = ix2 a b := ⟨y 0, y 1, eq_ix2 y⟩
  exact pay1_apply x0 x1 a b

/-- The whole product, entry by entry: entry (r, s) is the sum over k of A[r, k] · B[k, s]. -/
abbrev prod1 (A : S100000x16.Idx → EReal) (B : S16x64.Idx → EReal) : S100000x64.Idx → EReal :=
  fun i => ∑ k : Fin 16, A (ix2 (i 0) k) * B (ix2 k (i 1))

/-- The block indices over the grid: at point t the left operand's and the result's blocks are row block t, and the
    right operand's is the whole array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block of the result is some point's. -/
theorem idx_onto1 : ∀ q0 : Fin 20, ∃ t : Fin cfg1.N, win1_2.index t = ![q0.val, 0] :=
  (by decide +kernel : ∀ q0 : Fin 20, ∃ t : Fin grid1.N, win1_2.index t = ![q0.val, 0])

/-- What point t writes back is row block t of the whole product of the operand arrays: row 5000·t + a of the left
    array is row a of its block t, and the right array is its own single block. -/
theorem flushed1_eq (c : Dev nD) (t : Fin cfg1.N) :
    (dat1 (F := Ideal) V c).flushed 2 t
      = ((cfg1.win 2).blk t).view.read (Elt Ideal) (prod1 (V c main_v56) (V c main_arg3)) := by
  show (cfg1.win 2).cut (grid1.coords t) ((dat1 V c).after 2 t) = _
  rw [after1_2]
  unfold out1_2
  rw [View.canon_unit_zero offsets_zero]
  simp only [View.ld_unit_zero (S := S5000x16) offsets_zero, View.ld_unit_zero (S := S16x64) offsets_zero]
  obtain ⟨e0, e1, e2, e3, e4, e5⟩ := idx_facts1 t
  funext j
  refine (pay1_entry _ _ _).trans ?_
  show _ = prod1 (V c main_v56) (V c main_arg3) (((cfg1.win 2).blk t).view.emb j)
  refine Finset.sum_congr rfl fun k _ => ?_
  congr 1
  · show V c main_v56 (((cfg1.win 0).blk t).view.emb _) = V c main_v56 _
    congr 1
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 16 + 1 * k.val = k.val; omega
  · show V c main_arg3 (((cfg1.win 1).blk t).view.emb _) = V c main_arg3 _
    congr 1
    funext a; apply Fin.ext
    match a with
    | ⟨0, _⟩ => show win1_1.index t (0 : Fin 2) * 16 + 1 * k.val = k.val; omega
    | ⟨1, _⟩ => show win1_1.index t (1 : Fin 2) * 64 + 1 * (j 1).val = win1_2.index t (1 : Fin 2) * 64 + 1 * (j 1).val; omega

/-- An index of the result array is in point t's block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v57).slice (win1_2.rect t)).set ↔ _
  rw [View.set_slice_whole, Rect.mem_set_unit]
  exact Iff.rfl

/-- The row blocks cover the result: row r lies in the block of point r / 5000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After all 20 points the second region's result array is the whole product of its two operand arrays as the region
    finds them. -/
theorem region1_array (c : Dev nD) :
    (dat1 (F := Ideal) V c).arrAt 2 cfg1.N = prod1 (V c main_v56) (V c main_arg3) :=
  (dat1 (F := Ideal) V c).arrAt_eq_of_cover 2 (prod1 (V c main_v56) (V c main_arg3)) (fun t _ => flushed1_eq V c t) cover1

/-- The same as an equation of functions of the index, the product written out. -/
theorem region1_array_fun (c : Dev nD) :
    (dat1 (F := Ideal) V c).arrAt 2 cfg1.N
      = fun i : S100000x64.Idx => ∑ k : Fin 16,
          @HMul.hMul EReal EReal EReal instHMul (V c main_v56 (ix2 (i 0) k)) (V c main_arg3 (ix2 k (i 1))) :=
  region1_array V c

/-- Entry (p, q) of the second region's result array, for operand arrays known to be A and B. -/
theorem region1_entry_of (c : Dev nD) (A : S100000x16.Idx → EReal) (B : S16x64.Idx → EReal)
    (hA : V c main_v56 = A) (hB : V c main_arg3 = B) (p : Fin 100000) (q : Fin 64) :
    (dat1 (F := Ideal) V c).arrAt 2 cfg1.N (ix2 p q) = ∑ k : Fin 16, A (ix2 p k) * B (ix2 k q) := by
  subst hA hB
  exact congrFun (region1_array V c) (ix2 p q)

/-- Entry (p, q) of the second region's result array: the sum over k of the left operand's (p, k) times the right
    operand's (k, q). -/
theorem region1_entry (c : Dev nD) (p : Fin 100000) (q : Fin 64) :
    (dat1 (F := Ideal) V c).arrAt 2 cfg1.N (ix2 p q)
      = ∑ k : Fin 16, @HMul.hMul EReal EReal EReal instHMul (V c main_v56 (ix2 p k)) (V c main_arg3 (ix2 k q)) :=
  region1_entry_of V c _ _ rfl rfl p q

/-! ## Region 2: the [100000, 64] array times the [64, 2] array -/

/-- One entry of a block of the third product: the block's row of the left operand times the column of the right
    operand, summed over the 64 contracted coordinates (the operands' change of format is the identity on the
    extended reals, and the accumulator starts at zero). -/
theorem pay2_apply (x0 : Vec Ideal S5000x64 .f32) (x1 : Vec Ideal S64x2 .f32) (a : Fin 5000) (b : Fin 2) :
    k2_pay1 x0 x1 (ix2 a b) = ∑ k : Fin 64, x0 (ix2 a k) * x1 (ix2 k b) := by
  unfold k2_pay1
  simp only [shapeCast_self]
  exact Cert.LibMatmulBlock.matmul_zero_apply _ none x0 x1 a b

/-- The same at any index of the block, through its two coordinates. -/
theorem pay2_entry (x0 : Vec Ideal S5000x64 .f32) (x1 : Vec Ideal S64x2 .f32) (y : S5000x2.Idx) :
    k2_pay1 x0 x1 y = ∑ k : Fin 64, x0 (ix2 (y 0) k) * x1 (ix2 k (y 1)) := by
  obtain ⟨a, b, rfl⟩ : ∃ (a : Fin 5000) (b : Fin 2), y = ix2 a b := ⟨y 0, y 1, eq_ix2 y⟩
  exact pay2_apply x0 x1 a b

/-- The whole product, entry by entry: entry (r, s) is the sum over k of A[r, k] · B[k, s]. -/
abbrev prod2 (A : S100000x64.Idx → EReal) (B : S64x2.Idx → EReal) : S100000x2.Idx → EReal :=
  fun i => ∑ k : Fin 64, A (ix2 (i 0) k) * B (ix2 k (i 1))

/-- The block indices over the grid: at point t the left operand's and the result's blocks are row block t, and the
    right operand's is the whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block of the result is some point's. -/
theorem idx_onto2 : ∀ q0 : Fin 20, ∃ t : Fin cfg2.N, win2_2.index t = ![q0.val, 0] :=
  (by decide +kernel : ∀ q0 : Fin 20, ∃ t : Fin grid2.N, win2_2.index t = ![q0.val, 0])

/-- What point t writes back is row block t of the whole product of the operand arrays: row 5000·t + a of the left
    array is row a of its block t, and the right array is its own single block. -/
theorem flushed2_eq (c : Dev nD) (t : Fin cfg2.N) :
    (dat2 (F := Ideal) V c).flushed 2 t
      = ((cfg2.win 2).blk t).view.read (Elt Ideal) (prod2 (V c main_v60) (V c main_v63)) := by
  show (cfg2.win 2).cut (grid2.coords t) ((dat2 V c).after 2 t) = _
  rw [after2_2]
  unfold out2_2
  rw [View.canon_unit_zero offsets_zero]
  simp only [View.ld_unit_zero (S := S5000x64) offsets_zero, View.ld_unit_zero (S := S64x2) offsets_zero]
  obtain ⟨e0, e1, e2, e3, e4, e5⟩ := idx_facts2 t
  funext j
  refine (pay2_entry _ _ _).trans ?_
  show _ = prod2 (V c main_v60) (V c main_v63) (((cfg2.win 2).blk t).view.emb j)
  refine Finset.sum_congr rfl fun k _ => ?_
  congr 1
  · show V c main_v60 (((cfg2.win 0).blk t).view.emb _) = V c main_v60 _
    congr 1
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  · show V c main_v63 (((cfg2.win 1).blk t).view.emb _) = V c main_v63 _
    congr 1
    funext a; apply Fin.ext
    match a with
    | ⟨0, _⟩ => show win2_1.index t (0 : Fin 2) * 64 + 1 * k.val = k.val; omega
    | ⟨1, _⟩ => show win2_1.index t (1 : Fin 2) * 2 + 1 * (j 1).val = win2_2.index t (1 : Fin 2) * 2 + 1 * (j 1).val; omega

/-- An index of the result array is in point t's block iff each coordinate is in the block's range on its axis. -/
theorem mem_blk2 (t : Fin cfg2.N) (i : S100000x2.Idx) :
    i ∈ ((cfg2.win 2).blk t).view.set ↔ ∀ a : Fin 2, win2_2.index t a * S5000x2.size a ≤ (i a).val
      ∧ (i a).val < win2_2.index t a * S5000x2.size a + S5000x2.size a := by
  show i ∈ ((View.whole main_v64).slice (win2_2.rect t)).set ↔ _
  rw [View.set_slice_whole, Rect.mem_set_unit]
  exact Iff.rfl

/-- The row blocks cover the result: row r lies in the block of point r / 5000. -/
theorem cover2 (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 2 ≤ (i 1).val ∧ (i 1).val < win2_2.index t (1 : Fin 2) * 2 + 2; omega

/-- After all 20 points the third region's result array is the whole product of its two operand arrays as the region
    finds them. -/
theorem region2_array (c : Dev nD) :
    (dat2 (F := Ideal) V c).arrAt 2 cfg2.N = prod2 (V c main_v60) (V c main_v63) :=
  (dat2 (F := Ideal) V c).arrAt_eq_of_cover 2 (prod2 (V c main_v60) (V c main_v63)) (fun t _ => flushed2_eq V c t) cover2

/-- The same as an equation of functions of the index, the product written out. -/
theorem region2_array_fun (c : Dev nD) :
    (dat2 (F := Ideal) V c).arrAt 2 cfg2.N
      = fun i : S100000x2.Idx => ∑ k : Fin 64,
          @HMul.hMul EReal EReal EReal instHMul (V c main_v60 (ix2 (i 0) k)) (V c main_v63 (ix2 k (i 1))) :=
  region2_array V c

/-- Entry (p, q) of the third region's result array, for operand arrays known to be A and B. -/
theorem region2_entry_of (c : Dev nD) (A : S100000x64.Idx → EReal) (B : S64x2.Idx → EReal)
    (hA : V c main_v60 = A) (hB : V c main_v63 = B) (p : Fin 100000) (q : Fin 2) :
    (dat2 (F := Ideal) V c).arrAt 2 cfg2.N (ix2 p q) = ∑ k : Fin 64, A (ix2 p k) * B (ix2 k q) := by
  subst hA hB
  exact congrFun (region2_array V c) (ix2 p q)

/-- Entry (p, q) of the third region's result array: the sum over k of the left operand's (p, k) times the right
    operand's (k, q). -/
theorem region2_entry (c : Dev nD) (p : Fin 100000) (q : Fin 2) :
    (dat2 (F := Ideal) V c).arrAt 2 cfg2.N (ix2 p q)
      = ∑ k : Fin 64, @HMul.hMul EReal EReal EReal instHMul (V c main_v60 (ix2 p k)) (V c main_v63 (ix2 k q)) :=
  region2_entry_of V c _ _ rfl rfl p q

end Cert.KernelIdeal.RegionValue

end
-- ==== Proof.LibRowIndex.lean ====
/-
  Two index notions for a row gather followed by an accumulating row scatter.

  A list of E updates carries, per update e, one integer index (an [E, 1] array of words). Read as a
  GATHER index into an operand of N rows it is taken as a signed integer and clamped into [0, N - 1]:
  `gatherRow`. Read as a SCATTER index it is taken as a signed integer and NOT clamped: update e lands
  on row n exactly when that integer is n, and the updates landing on row n form the finite set
  `hits idx n` (an index outside [0, N) lands nowhere).
-/
import Idealize.ShloMosaic.Lib.ValueIdx

namespace Cert.Lib

open Idealize.ShloMosaic Idealize.ShloMosaic.ValueIdx

variable {N E w : Nat}

/-- The operand row an update row reads: its start index read as a signed integer and clamped into [0, N-1]. -/
def gatherRow (hN : 0 < N) (idx : IVec ⟨2, ![E, 1]⟩ w) (e : Fin E) : Fin N :=
  ⟨min (idx (ix2 e (0 : Fin 1))).toInt.toNat (N - 1), by omega⟩

/-- The update rows that land on operand row n: those whose scatter index, read signed and not clamped, is n. -/
def hits (idx : IVec ⟨2, ![E, 1]⟩ w) (n : Nat) : Finset (Fin E) :=
  Finset.univ.filter fun e => (idx (ix2 e (0 : Fin 1))).toInt = (n : Int)

end Cert.Lib
-- ==== Proof.LibRowGatherScatter.lean ====
/-
  A row gather and an accumulating scatter, read at one index.

  An operand has N rows (of C columns, or of one scalar each); a list of E updates carries one integer index per
  update, an [E, 1] array of words of width w. Everything here is generic in the extents N, C, E and in w.

    • GATHER of rows: result element (e, k) is the operand's element (gatherRow e, k), where gatherRow e is update
      e's index read as a signed integer and clamped into [0, N - 1] (`gather_rows_apply`).
    • ACCUMULATING SCATTER of rows, at the ideal float instance (exact sums on the extended reals): result element
      (n, k) is the operand's element plus the sum of the updates' elements (e, k) over the updates e in
      `hits idx n`, those whose index read signed — and not clamped — is n (`scatterAdd_rows_apply`); an update
      whose index is outside [0, N) lands nowhere.
    • The same scatter with scalar updates into a vector of N entries (`scatterAdd_vec_apply`).

  The route for the scatter: an update lands on operand index i exactly when start plus window coordinate equals
  i's coordinate on every axis; for these dimension numbers the start is the update's index on the row axis and 0
  on the column axis, the window coordinate 0 on the row axis and the update's column on the column axis; the sum
  over the updates landing on (n, k) is then re-indexed along e ↦ (e, k).
-/
import Idealize.ShloMosaic.Lib.ValueIdx
import Idealize.ShloMosaic.PureOps.Ideal
import Idealize.ShloMosaic.PureOps.Contract
import proofs.«104134_j25340307046431_2_alg».proof.Proof.LibRowIndex

noncomputable section

namespace Cert.Lib

open Idealize.ShloMosaic Idealize.ShloMosaic.ValueIdx
open scoped BigOperators

variable {N C E w : Nat}

/-- Update row e lands on operand row n exactly when its scatter index, read signed, is n. -/
private theorem mem_hits (idx : IVec ⟨2, ![E, 1]⟩ w) (n : Nat) (e : Fin E) :
    e ∈ hits idx n ↔ (idx (ix2 e (0 : Fin 1))).toInt = (n : Int) := by
  unfold hits
  exact Finset.mem_filter.trans (and_iff_right (Finset.mem_univ e))

/-- An update lands on operand index i exactly when, on every axis, start plus window coordinate is i's coordinate. -/
private theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro hi a
      have hi' := Option.some.inj hi
      have := congrArg (fun f => (f a).val) hi'
      simp only at this
      have h0 := (h a).1
      omega
    · intro hi
      congr 1
      funext a
      refine Fin.ext ?_
      have := hi a
      simp only
      omega
  · rename_i h
    constructor
    · intro hi; exact absurd hi (by simp)
    · intro hi
      exfalso
      apply h
      intro a
      have := hi a
      have := (i a).isLt
      omega

section Rows
variable (uw : ScatterDims.WF ⟨2, ![N, C]⟩ ⟨2, ![E, 1]⟩ ⟨2, ![E, C]⟩ [1] [0] [0] 1)

/-- The literal dimension numbers of a row scatter. -/
private abbrev rowsDims : ScatterDims ⟨2, ![N, C]⟩ ⟨2, ![E, 1]⟩ ⟨2, ![E, C]⟩ := ⟨[1], [0], [0], 1, uw⟩

/-- The scatter index update (e, k') reads is the index array's entry (e, 0). -/
private theorem rows_siIdx (j : (⟨2, ![E, C]⟩ : Shape).Idx) :
    (rowsDims uw).siIdx j ⟨List.idxOf (0 : Fin 2) (rowsDims uw).scatterDimsToOperandDims,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- On the row axis the window starts at update row e's index, read signed. -/
private theorem rows_start0 (j : (⟨2, ![E, C]⟩ : Shape).Idx) (idx : IVec ⟨2, ![E, 1]⟩ w) :
    (rowsDims uw).start j idx 0 = (idx (ix2 (j 0) (0 : Fin 1))).toInt := by
  unfold ScatterDims.start
  rw [dif_pos (show (0 : Fin 2) ∈ (rowsDims uw).scatterDimsToOperandDims from List.mem_singleton.mpr rfl)]
  rw [rows_siIdx]
  rfl

/-- On the column axis the window starts at 0. -/
private theorem rows_start1 (j : (⟨2, ![E, C]⟩ : Shape).Idx) (idx : IVec ⟨2, ![E, 1]⟩ w) :
    (rowsDims uw).start j idx 1 = 0 := by
  unfold ScatterDims.start
  rw [dif_neg (show (1 : Fin 2) ∉ ([0] : List (Fin 2)) by decide)]

/-- The row axis is inserted: its window coordinate is 0. -/
private theorem rows_window0 (j : (⟨2, ![E, C]⟩ : Shape).Idx) : (rowsDims uw).window j 0 = 0 := by
  unfold ScatterDims.window
  rw [dif_neg (by simp [ScatterDims.sKept, Shape.kept])]

/-- On the column axis the window coordinate is the update's column. -/
private theorem rows_window1 (j : (⟨2, ![E, C]⟩ : Shape).Idx) : (rowsDims uw).window j 1 = (j 1).val := by
  unfold ScatterDims.window
  rw [dif_pos (by simp [ScatterDims.sKept, Shape.kept])]
  rfl

end Rows

section Rows
variable (uw : ScatterDims.WF ⟨2, ![N, C]⟩ ⟨2, ![E, 1]⟩ ⟨2, ![E, C]⟩ [1] [0] [0] 1)

/-- For a row scatter, update (e, k') lands on (n, k) exactly when e's index, read signed, is n and k' = k. -/
private theorem rows_resultIdx?_iff (j : (⟨2, ![E, C]⟩ : Shape).Idx) (idx : IVec ⟨2, ![E, 1]⟩ w) (n : Fin N) (k : Fin C) :
    (rowsDims uw).resultIdx? j idx = some (ix2 n k) ↔
      (idx (ix2 (j 0) (0 : Fin 1))).toInt = (n.val : Int) ∧ j 1 = k := by
  rw [resultIdx?_eq_some_iff]
  constructor
  · intro h
    have h0 : (rowsDims uw).start j idx 0 + ((rowsDims uw).window j 0 : Int) = (n.val : Int) := h 0
    have h1 : (rowsDims uw).start j idx 1 + ((rowsDims uw).window j 1 : Int) = (k.val : Int) := h 1
    rw [rows_start0, rows_window0] at h0
    rw [rows_start1, rows_window1] at h1
    refine ⟨?_, Fin.ext ?_⟩
    · omega
    · omega
  · rintro ⟨h0, h1⟩ a
    match a with
    | ⟨0, _⟩ =>
      show (rowsDims uw).start j idx 0 + ((rowsDims uw).window j 0 : Int) = (n.val : Int)
      rw [rows_start0, rows_window0]
      omega
    | ⟨1, _⟩ =>
      show (rowsDims uw).start j idx 1 + ((rowsDims uw).window j 1 : Int) = (k.val : Int)
      rw [rows_start1, rows_window1, h1]
      omega

end Rows

/-- AN ACCUMULATING ROW SCATTER READ AT (n, k): the operand's element plus the sum, over the update rows whose index read
    signed is n, of the update's element in column k. -/
theorem scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (n : Fin N) (k : Fin C) :
    Host.scatterAdd (F := Ideal) d x idx upd (ix2 n k) = x (ix2 n k) + ∑ e ∈ hits idx n.val, upd (ix2 e k) := by
  obtain ⟨uwd, iwd, sd, iv, wf⟩ := d
  dsimp only at h1 h2 h3 h4
  subst h1 h2 h3 h4
  show Ideal.hostScatterAdd (rowsDims wf) x idx upd (ix2 n k) = _
  unfold Ideal.hostScatterAdd
  congr 1
  have key : ∀ j : (⟨2, ![E, C]⟩ : Shape).Idx, (rowsDims wf).resultIdx? j idx = some (ix2 n k) → ix2 (j 0) k = j := by
    intro j hj
    have := ((rows_resultIdx?_iff wf j idx n k).1 hj).2
    rw [← this]; exact (eq_ix2 j).symm
  refine Finset.sum_nbij' (fun j => j 0) (fun e => ix2 e k) ?_ ?_ ?_ ?_ ?_
  · intro j hj
    have := (rows_resultIdx?_iff wf j idx n k).1 (Finset.mem_filter.1 hj).2
    exact (mem_hits idx n.val (j 0)).2 this.1
  · intro e he
    exact Finset.mem_filter.2 ⟨Finset.mem_univ _,
      (rows_resultIdx?_iff wf (ix2 e k) idx n k).2 ⟨(mem_hits idx n.val e).1 he, rfl⟩⟩
  · intro j hj
    exact key j (Finset.mem_filter.1 hj).2
  · intro e _; rfl
  · intro j hj
    exact congrArg upd (key j (Finset.mem_filter.1 hj).2).symm

section Vec
variable (uw : ScatterDims.WF ⟨1, ![N]⟩ ⟨2, ![E, 1]⟩ ⟨1, ![E]⟩ [] [0] [0] 1)

/-- The literal dimension numbers of a scatter of scalars into a vector. -/
private abbrev vecDims : ScatterDims ⟨1, ![N]⟩ ⟨2, ![E, 1]⟩ ⟨1, ![E]⟩ := ⟨[], [0], [0], 1, uw⟩

/-- The scatter index update e reads is the index array's entry (e, 0). -/
private theorem vec_siIdx (j : (⟨1, ![E]⟩ : Shape).Idx) :
    (vecDims uw).siIdx j ⟨List.idxOf (0 : Fin 1) (vecDims uw).scatterDimsToOperandDims,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- On the one operand axis the window starts at update e's index, read signed. -/
private theorem vec_start0 (j : (⟨1, ![E]⟩ : Shape).Idx) (idx : IVec ⟨2, ![E, 1]⟩ w) :
    (vecDims uw).start j idx 0 = (idx (ix2 (j 0) (0 : Fin 1))).toInt := by
  unfold ScatterDims.start
  rw [dif_pos (show (0 : Fin 1) ∈ (vecDims uw).scatterDimsToOperandDims from List.mem_singleton.mpr rfl)]
  rw [vec_siIdx]
  rfl

/-- The one operand axis is inserted: its window coordinate is 0. -/
private theorem vec_window0 (j : (⟨1, ![E]⟩ : Shape).Idx) : (vecDims uw).window j 0 = 0 := by
  unfold ScatterDims.window
  rw [dif_neg (by simp [ScatterDims.sKept, Shape.kept])]

/-- For a scatter of scalars into a vector, update e lands on n exactly when e's index, read signed, is n. -/
private theorem vec_resultIdx?_iff (j : (⟨1, ![E]⟩ : Shape).Idx) (idx : IVec ⟨2, ![E, 1]⟩ w) (n : Fin N) :
    (vecDims uw).resultIdx? j idx = some (ix1 n) ↔ (idx (ix2 (j 0) (0 : Fin 1))).toInt = (n.val : Int) := by
  rw [resultIdx?_eq_some_iff]
  constructor
  · intro h
    have h0 : (vecDims uw).start j idx 0 + ((vecDims uw).window j 0 : Int) = (n.val : Int) := h 0
    rw [vec_start0, vec_window0] at h0
    omega
  · intro h0 a
    match a with
    | ⟨0, _⟩ =>
      show (vecDims uw).start j idx 0 + ((vecDims uw).window j 0 : Int) = (n.val : Int)
      rw [vec_start0, vec_window0]
      omega

end Vec

/-- AN ACCUMULATING SCATTER OF SCALARS INTO A VECTOR READ AT n: the operand's element plus the sum of the updates whose
    index read signed is n. -/
theorem scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (n : Fin N) :
    Host.scatterAdd (F := Ideal) d x idx upd (ix1 n) = x (ix1 n) + ∑ e ∈ hits idx n.val, upd (ix1 e) := by
  obtain ⟨uwd, iwd, sd, iv, wf⟩ := d
  dsimp only at h1 h2 h3 h4
  subst h1 h2 h3 h4
  show Ideal.hostScatterAdd (vecDims wf) x idx upd (ix1 n) = _
  unfold Ideal.hostScatterAdd
  congr 1
  refine Finset.sum_nbij' (fun j => j 0) (fun e => ix1 e) ?_ ?_ ?_ ?_ ?_
  · intro j hj
    have := (vec_resultIdx?_iff wf j idx n).1 (Finset.mem_filter.1 hj).2
    exact (mem_hits idx n.val (j 0)).2 this
  · intro e he
    exact Finset.mem_filter.2 ⟨Finset.mem_univ _, (vec_resultIdx?_iff wf (ix1 e) idx n).2 ((mem_hits idx n.val e).1 he)⟩
  · intro j _
    exact (eq_ix1 j).symm
  · intro e _; rfl
  · intro j _
    exact congrArg upd (eq_ix1 j)

section Gather
variable {α : Type}

section Dims
variable (ss : Fin 2 → Nat)
  (gw : GatherDims.WF ⟨2, ![N, C]⟩ ⟨2, ![E, 1]⟩ ⟨2, ![E, C]⟩ [1] [0] [] [0] [] 1 ss)

/-- The literal dimension numbers of a row gather, at any slice sizes. -/
private abbrev gRowsDims : GatherDims ⟨2, ![N, C]⟩ ⟨2, ![E, 1]⟩ ⟨2, ![E, C]⟩ := ⟨[1], [0], [], [], [0], 1, ss, gw⟩

/-- The start index result row e reads is the index array's entry (e, 0). -/
private theorem gRows_siIdx (j : (⟨2, ![E, C]⟩ : Shape).Idx) :
    (gRowsDims ss gw).siIdx j ⟨List.idxOf (0 : Fin 2) (gRowsDims ss gw).startIndexMap,
      List.idxOf_lt_length_iff.2 (List.mem_singleton.mpr rfl)⟩ = ix2 (j 0) (0 : Fin 1) := by
  funext b; refine Fin.ext ?_
  match b with
  | ⟨0, _⟩ => rfl
  | ⟨1, _⟩ => rfl

include gw in
/-- On the row axis the slice has one row. -/
private theorem gRows_slice0 : ss 0 = 1 :=
  (gRowsDims ss gw).slice_collapsed 0 (List.mem_singleton.mpr rfl)

/-- On the row axis the operand coordinate is the start index, read signed and clamped into [0, N - 1]. -/
private theorem gRows_coord0 (j : (⟨2, ![E, C]⟩ : Shape).Idx) (idx : IVec ⟨2, ![E, 1]⟩ w) :
    (gRowsDims ss gw).start j idx 0 + (gRowsDims ss gw).batchCoord j 0 + (gRowsDims ss gw).offCoord j 0
      = min (idx (ix2 (j 0) (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gRowsDims ss gw).startIndexMap from List.mem_singleton.mpr rfl)]
  rw [gRows_siIdx]
  show min _ (N - ss 0) = _
  rw [gRows_slice0 ss gw]
  rfl

/-- On the column axis the operand coordinate is the result's column. -/
private theorem gRows_coord1 (j : (⟨2, ![E, C]⟩ : Shape).Idx) (idx : IVec ⟨2, ![E, 1]⟩ w) :
    (gRowsDims ss gw).start j idx 1 + (gRowsDims ss gw).batchCoord j 1 + (gRowsDims ss gw).offCoord j 1
      = (j 1).val := by
  rw [GatherDims.batchCoord_eq_zero _ _ _ List.not_mem_nil]
  unfold GatherDims.start
  rw [dif_neg (show (1 : Fin 2) ∉ ([0] : List (Fin 2)) by decide)]
  unfold GatherDims.offCoord
  rw [dif_pos (by simp [GatherDims.sKept, Shape.kept])]
  simp only [Nat.add_zero, Nat.zero_add]
  rfl

end Dims

/-- A ROW GATHER READ AT (e, k): the operand's element in column k of the row that update row e's start index, read
    signed and clamped into [0, N - 1], names. -/
theorem gather_rows_apply (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (x : (⟨2, ![N, C]⟩ : Shape).Idx → α) (idx : IVec ⟨2, ![E, 1]⟩ w) (e : Fin E) (k : Fin C) :
    Host.gather d x idx (ix2 e k) = x (ix2 (gatherRow hN idx e) k) := by
  obtain ⟨od, cd, ob, sb, sm, iv, ss, wf⟩ := d
  dsimp only at h1 h2 h3 h4 h5 h6
  subst h1 h2 h3 h4 h5 h6
  show x ((gRowsDims ss wf).operandIdx (ix2 e k) idx) = _
  congr 1
  funext a
  refine Fin.ext ?_
  match a with
  | ⟨0, _⟩ => exact gRows_coord0 ss wf (ix2 e k) idx
  | ⟨1, _⟩ => exact gRows_coord1 ss wf (ix2 e k) idx

end Gather

end Cert.Lib

end
-- ==== Proof.LibVecGather.lean ====
/-
  A gather of scalars out of a vector, read at an index.

  What `x[idx]` of a flat array x : [N] at a list of E integer indices lowers to: a gather whose start indices are an
  [E, 1] array of words, the operand's one axis collapsed, slice size 1. Result entry e is x at the row the start index
  names once read as a signed integer and clamped into [0, N - 1] (`gatherRow`).
-/
import Idealize.ShloMosaic.Lib.ValueIdx
import Idealize.ShloMosaic.PureOps.Ideal
import proofs.«104134_j25340307046431_2_alg».proof.Proof.LibRowIndex

noncomputable section

namespace Cert.Lib

open Idealize.ShloMosaic Idealize.ShloMosaic.ValueIdx

variable {N E w : Nat} {α : Type}

section Dims
variable (ss : Fin 1 → Nat)
  (gw : GatherDims.WF ⟨1, ![N]⟩ ⟨2, ![E, 1]⟩ ⟨1, ![E]⟩ [] [0] [] [0] [] 1 ss)

/-- The literal dimension numbers of a gather of scalars, at any slice size. -/
private abbrev gVecDims : GatherDims ⟨1, ![N]⟩ ⟨2, ![E, 1]⟩ ⟨1, ![E]⟩ := ⟨[], [0], [], [], [0], 1, ss, gw⟩

/-- The start index result entry e reads is the index array's entry (e, 0). -/
private theorem gVec_siIdx (j : (⟨1, ![E]⟩ : Shape).Idx) :
    (gVecDims ss gw).siIdx j ⟨List.idxOf (0 : Fin 1) (gVecDims ss gw).startIndexMap,
      List.idxOf_lt_length_iff.2 (List.mem_singleton.mpr rfl)⟩ = ix2 (j 0) (0 : Fin 1) := by
  funext b; refine Fin.ext ?_
  match b with
  | ⟨0, _⟩ => rfl
  | ⟨1, _⟩ => rfl

include gw in
/-- The slice has one entry. -/
private theorem gVec_slice0 : ss 0 = 1 :=
  (gVecDims ss gw).slice_collapsed 0 (List.mem_singleton.mpr rfl)

/-- The operand coordinate is the start index, read signed and clamped into [0, N - 1]. -/
private theorem gVec_coord0 (j : (⟨1, ![E]⟩ : Shape).Idx) (idx : IVec ⟨2, ![E, 1]⟩ w) :
    (gVecDims ss gw).start j idx 0 + (gVecDims ss gw).batchCoord j 0 + (gVecDims ss gw).offCoord j 0
      = min (idx (ix2 (j 0) (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gVecDims ss gw).startIndexMap from List.mem_singleton.mpr rfl)]
  rw [gVec_siIdx]
  show min _ (N - ss 0) = _
  rw [gVec_slice0 ss gw]
  rfl

end Dims

/-- A GATHER OF SCALARS READ AT e: the operand's entry at the row that e's start index, read signed and clamped into
    [0, N - 1], names. -/
theorem gather_vec_apply (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (x : (⟨1, ![N]⟩ : Shape).Idx → α) (idx : IVec ⟨2, ![E, 1]⟩ w) (e : Fin E) :
    Host.gather d x idx (ix1 e) = x (ix1 (gatherRow hN idx e)) := by
  obtain ⟨od, cd, ob, sb, sm, iv, ss, wf⟩ := d
  dsimp only at h1 h2 h3 h4 h5 h6
  subst h1 h2 h3 h4 h5 h6
  show x ((gVecDims ss wf).operandIdx (ix1 e) idx) = _
  congr 1
  funext a
  refine Fin.ext ?_
  match a with
  | ⟨0, _⟩ => exact gVec_coord0 ss wf (ix1 e) idx

end Cert.Lib

end
-- ==== Proof.HiddenReal.lean ====
/-
  The hidden node features are real numbers when the float inputs are.

  The first graph layer is h = max(agg + b1, 0), where agg at node n and column k is the sum, over the edges e
  landing on n, of P(src e, k) * nu e; P = x W1 is the first product and nu e = dinv(src e) * dinv(dst e) with
  dinv = 1 / sqrt(deg). The degree of a node counts the edges landing on it, and the edge list ends with one
  self-loop per node: position 3200000 + n of the destination column holds n itself, so every degree is a
  positive whole number, its reciprocal square root is a real number, and so is every edge coefficient nu e.
  With real entries of x, W1 and b1 the product P, the aggregate, and h are then real, entry by entry. The
  second layer's law (distributing the weights over the aggregate) needs exactly this.
-/
import proofs.«104134_j25340307046431_2_alg».proof.Proof.Gen.ReferenceIdeal.Read
import proofs.«104134_j25340307046431_2_alg».proof.Proof.LibRowGatherScatter
import proofs.«104134_j25340307046431_2_alg».proof.Proof.LibVecGather
import proofs.«104134_j25340307046431_2_alg».proof.Proof.LibRealChain
import Idealize.ShloMosaic.Lib.Pipeline.Value
import Idealize.ShloMosaic.Lib.ValueIdx
import Idealize.ShloMosaic.PureOps.Ideal.Laws

noncomputable section

namespace Cert.ReferenceIdeal.RefReal

open Cert.ReferenceIdeal Cert.ReferenceIdeal.Gen Cert.ReferenceIdeal.Read Idealize.ShloMosaic Idealize.ShloMosaic.ValueIdx Cert.Lib
open scoped BigOperators

/-! ## Two float literals and one integer fact -/

/-- The pattern of 1.0 denotes the real number one. -/
theorem ofBits_one : Ideal.ofBits .f32 0x3F800000#32 = 1 := by
  simp [Ideal.ofBits, Ideal.ieee, -EReal.coe_mul]; norm_num

/-- One is a positive real. -/
theorem one_posReal : IsPosReal (1 : EReal) := ⟨1, one_pos, EReal.coe_one.symm⟩

/-- A node number, written as a 32-bit word and read back as a signed integer, is itself. -/
theorem toInt_ofNat_node (n : Nat) (h : n < 100000) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- The reciprocal square root of a positive real is a real. -/
theorem isReal_rsqrt {x : EReal} (h : IsPosReal x) : IsReal (Ideal.rsqrt x) := by
  obtain ⟨r, hr, rfl⟩ := h
  show IsReal (if r < 0 then ⊥ else if r = 0 then ⊤ else (((Real.sqrt r)⁻¹ : ℝ) : EReal))
  rw [if_neg (not_lt.2 hr.le), if_neg hr.ne']
  exact ⟨_, rfl⟩

variable (x0 : (⟨S100000x512, .f32⟩ : BufTy).Contents (Elt Ideal)) (x1 : (⟨S512x16, .f32⟩ : BufTy).Contents (Elt Ideal))
  (x2 : (⟨S16, .f32⟩ : BufTy).Contents (Elt Ideal)) (x7 : (⟨S2x3200000, .i32⟩ : BufTy).Contents (Elt Ideal))

/-! ## Every node has its self-loop, so every degree is positive -/

/-- The self-loop of node n: its position in the edge list. -/
def selfLoop (n : Fin 100000) : Fin 3300000 := ⟨3200000 + n.val, by omega⟩

/-- The destination column holds n at node n's self-loop: past the 3200000 given edges it is the list of all nodes. -/
theorem dst_selfLoop (n : Fin 100000) :
    val_main_v6 (F := Ideal) x7 (ix1 (selfLoop n)) = BitVec.ofNat 32 n.val := by
  unfold val_main_v6
  rw [concatenate_pair_apply_right (t := S3300000) (s₁ := S3200000) (s₂ := S100000) (0 : Fin 1) _ _ concatenates_S3200000_S100000_S3300000_d0 (ix1 (selfLoop n)) rfl rfl
    (ix1 n : S100000.Idx) (fun b hb => absurd (Subsingleton.elim _ _) hb) (by show n.val + 3200000 = 3200000 + n.val; omega)]
  exact val_main_v0_apply (F := Ideal) (ix1 n)

/-- So the set of edges landing on a node is never empty. -/
theorem hits_nonempty (n : Fin 100000) : (hits (val_main_v9 (F := Ideal) x7) n.val).Nonempty := by
  refine ⟨selfLoop n, ?_⟩
  unfold hits
  refine Finset.mem_filter.mpr ⟨Finset.mem_univ _, ?_⟩
  rw [val_main_v9_apply]
  rw [show idx_main_v9 (ix2 (selfLoop n) (0 : Fin 1)) = ix1 (selfLoop n) from
    funext fun a => Fin.ext (by match a with | ⟨0, _⟩ => rfl)]
  rw [dst_selfLoop]
  exact toInt_ofNat_node n.val n.isLt

/-- The degree of a node: the number of edges landing on it, each counted as 1.0 into a zero accumulator. -/
theorem deg_apply (n : Fin 100000) :
    val_main_v10 (F := Ideal) x7 (ix1 n)
      = val_main_v8 (F := Ideal) (ix1 n) + ∑ e ∈ hits (val_main_v9 (F := Ideal) x7) n.val, val_main_v7 (F := Ideal) (ix1 e) := by
  unfold val_main_v10
  exact scatterAdd_vec_apply scatter_S100000_S3300000x1_S3300000_n_0_0_1 rfl rfl rfl rfl _ _ _ n

theorem deg_pos (n : Fin 100000) : IsPosReal (val_main_v10 (F := Ideal) x7 (ix1 n)) := by
  rw [deg_apply]
  have h8 : val_main_v8 (F := Ideal) (ix1 n) = 0 := by
    rw [val_main_v8_apply]; exact Ideal.ofBits_zero_f32
  have h7 : ∀ e : Fin 3300000, val_main_v7 (F := Ideal) (ix1 e) = 1 := fun e => by
    rw [val_main_v7_apply]; exact ofBits_one
  rw [h8, zero_add]
  exact IsPosReal.sum (hits_nonempty x7 n) _ fun e _ => (h7 e).symm ▸ one_posReal

/-- The reciprocal square root of the degree is real at every node. -/
theorem dinv_real (i : S100000.Idx) : IsReal (val_main_v11 (F := Ideal) x7 i) := by
  obtain ⟨n, rfl⟩ : ∃ n : Fin 100000, i = ix1 n := ⟨i 0, eq_ix1 i⟩
  rw [val_main_v11_apply, Ideal.hostUnary_rsqrt_def]
  exact isReal_rsqrt (deg_pos x7 n)

/-- Every edge coefficient is real: the product of two nodes' reciprocal square roots of the degree. -/
theorem norm_real (i : S3300000.Idx) : IsReal (val_main_v26 (F := Ideal) x7 i) := by
  obtain ⟨e, rfl⟩ : ∃ e : Fin 3300000, i = ix1 e := ⟨i 0, eq_ix1 i⟩
  rw [val_main_v26_apply]
  refine IsReal.mul ?_ ?_
  · unfold val_main_v18
    rw [gather_vec_apply (by decide : 0 < 100000) gather_S100000_S3300000x1_S3300000_n_0_n_n_0_1_1 rfl rfl rfl rfl rfl rfl]
    exact dinv_real x7 _
  · unfold val_main_v25
    rw [gather_vec_apply (by decide : 0 < 100000) gather_S100000_S3300000x1_S3300000_n_0_n_n_0_1_1 rfl rfl rfl rfl rfl rfl]
    exact dinv_real x7 _

/-! ## The first product, the aggregate and the hidden features -/

variable (h0 : ∀ i, IsReal (x0 i)) (h1 : ∀ i, IsReal (x1 i)) (h2 : ∀ i, IsReal (x2 i))

include h0 h1 in
/-- The first product has real entries. -/
theorem prod1_real (i : S100000x16.Idx) : IsReal (val_main_v27 (F := Ideal) x0 x1 i) := by
  rw [val_main_v27_apply]
  exact IsReal.sum_univ_mul _ _ (fun k => h0 _) (fun k => h1 _)

include h0 h1 in
/-- One edge's message: the source's row of the first product times the edge coefficient. -/
theorem msg1_real (e : Fin 3300000) (k : Fin 16) : IsReal (val_main_v37 (F := Ideal) x0 x1 x7 (ix2 e k)) := by
  rw [val_main_v37_apply]
  refine IsReal.mul ?_ ?_
  · unfold val_main_v34
    rw [gather_rows_apply (by decide : 0 < 100000) gather_S100000x16_S3300000x1_S3300000x16_1_0_n_n_0_1_116 rfl rfl rfl rfl rfl rfl]
    exact prod1_real x0 x1 h0 h1 _
  · rw [val_main_v36_apply, val_main_v35_apply]
    exact norm_real x7 _

include h0 h1 h2 in
/-- The hidden features are real, entry by entry. -/
theorem hidden_real (i : S100000x16.Idx) : IsReal (val_main_v44 (F := Ideal) x0 x1 x2 x7 i) := by
  obtain ⟨n, k, rfl⟩ : ∃ (n : Fin 100000) (k : Fin 16), i = ix2 n k := ⟨i 0, i 1, eq_ix2 i⟩
  rw [val_main_v44_apply, val_main_v43_apply]
  refine IsReal.max (IsReal.add ?_ ?_) ?_
  · unfold val_main_v40
    rw [scatterAdd_rows_apply scatter_S100000x16_S3300000x1_S3300000x16_1_0_0_1 rfl rfl rfl rfl]
    refine IsReal.add ?_ (IsReal.sum _ _ fun e _ => msg1_real x0 x1 x7 h0 h1 e k)
    rw [val_main_v38_apply]
    exact ⟨0, Ideal.ofBits_zero_f32⟩
  · rw [val_main_v42_apply, val_main_v41_apply]
    exact h2 _
  · rw [val_main_call0_v0_apply]
    exact ⟨0, Ideal.ofBits_zero_f32⟩

end Cert.ReferenceIdeal.RefReal

end
-- ==== Proof.EdgeIndex.lean ====
/-
  An edge endpoint as a node.

  An endpoint arrives as a 32-bit word. Both programs first add the node count to a negative word (so that -1
  means the last node) and then gather with it; a gather reads its index as a signed integer and clamps it into
  the node range. `wrapWord` is the first step on one word, `rowOfWord` the second.
-/
import proofs.«104134_j25340307046431_2_alg».proof.Proof.LibRowIndex
import Idealize.ShloMosaic.PureOps.Ideal

namespace Cert.Lib

open Idealize.ShloMosaic Idealize.ShloMosaic.ValueIdx

/-- A negative endpoint wrapped by the node count; any other endpoint as it is. -/
def wrapWord (w : BitVec 32) : BitVec 32 :=
  Scalar.select (IntOp.cmpi .slt w 0#32) (IntOp.addi w 100000#32) w

/-- The node a gather reads for an index word: the word as a signed integer, clamped into [0, 99999]. -/
def rowOfWord (w : BitVec 32) : Fin 100000 := ⟨min w.toInt.toNat (100000 - 1), by omega⟩

/-- A gather's row for update e depends only on the index column's entry (e, 0). -/
theorem gatherRow_eq_rowOfWord {E : Nat} (idx : IVec ⟨2, ![E, 1]⟩ 32) (e : Fin E) (w : BitVec 32)
    (h : idx (ix2 e (0 : Fin 1)) = w) : gatherRow (by decide : 0 < 100000) idx e = rowOfWord w := by
  subst h
  rfl

end Cert.Lib
-- ==== Proof.LogitsKernel.lean ====
/-
  The kernel's edge logits, read at an edge.

  After the third product M = z Wc (two columns: z against the first half of We, z against the second half) the
  kernel joins the two edge lists side by side, takes the row of first endpoints and the row of second endpoints,
  wraps negative endpoints, and gathers one scalar per endpoint: logit e = M(a e, 0) + M(b e, 1) + be. This
  module states that tail as one function of M and the arguments and reads it at an edge e: the endpoints of
  edge e are the first list's below 1000000 and the second list's from there on.
-/
import proofs.«104134_j25340307046431_2_alg».proof.Proof.Gen.KernelIdeal
import proofs.«104134_j25340307046431_2_alg».proof.Proof.LibVecGather
import proofs.«104134_j25340307046431_2_alg».proof.Proof.EdgeIndex
import Idealize.ShloMosaic.Lib.Pipeline.Value
import Idealize.ShloMosaic.Lib.ValueIdx
import Idealize.ShloMosaic.PureOps.Ideal

noncomputable section

namespace Cert.KernelIdeal.KTail

open Cert.KernelIdeal Cert.KernelIdeal.Gen Idealize.ShloMosaic Idealize.ShloMosaic.ValueIdx Cert.Lib

/-- The two edge lists side by side: positions below 1000000 are the first list's, the rest the second's. -/
def catK (x8 x9 : (⟨S2x1000000, .i32⟩ : BufTy).Contents (Elt Ideal)) : (⟨S2x2000000, .i32⟩ : BufTy).Contents (Elt Ideal) :=
  concatenate S2x2000000 1 [⟨S2x1000000, x8⟩, ⟨S2x1000000, x9⟩] concatenates_S2x1000000_S2x1000000_S2x2000000_d1

/-- Row 0 (the first endpoints) of the joined list, as a vector. -/
def endA (x8 x9 : (⟨S2x1000000, .i32⟩ : BufTy).Contents (Elt Ideal)) : (⟨S2000000, .i32⟩ : BufTy).Contents (Elt Ideal) :=
  shapeCast _ (extractStridedSlice S1x2000000 ![0, 0] (catK x8 x9) slices_S2x2000000_S1x2000000_0_0) shapeCasts_S1x2000000_S2000000

/-- Row 1 (the second endpoints). -/
def endB (x8 x9 : (⟨S2x1000000, .i32⟩ : BufTy).Contents (Elt Ideal)) : (⟨S2000000, .i32⟩ : BufTy).Contents (Elt Ideal) :=
  shapeCast _ (extractStridedSlice S1x2000000 ![1, 0] (catK x8 x9) slices_S2x2000000_S1x2000000_1_0) shapeCasts_S1x2000000_S2000000

/-- A vector of endpoints with the negative ones wrapped by the node count, as a gather's index column. -/
def wrapCol (v : (⟨S2000000, .i32⟩ : BufTy).Contents (Elt Ideal)) : (⟨S2000000x1, .i32⟩ : BufTy).Contents (Elt Ideal) :=
  broadcastInDim S2000000x1 ![0] bcast_S2000000_S2000000x1_0
    (select (cmpi .slt v (broadcastInDim S2000000 ![] bcast_S_S2000000 (constantI S_ 32 0#32)))
      (addi v (broadcastInDim S2000000 ![] bcast_S_S2000000 (constantI S_ 32 100000#32))) v)

/-- Column 0 of the projected embeddings, as a vector. -/
def projA (M : (⟨S100000x2, .f32⟩ : BufTy).Contents (Elt Ideal)) : (⟨S100000, .f32⟩ : BufTy).Contents (Elt Ideal) :=
  shapeCast _ (extractStridedSlice S100000x1 ![0, 0] M slices_S100000x2_S100000x1_0_0) shapeCasts_S100000x1_S100000

/-- Column 1. -/
def projB (M : (⟨S100000x2, .f32⟩ : BufTy).Contents (Elt Ideal)) : (⟨S100000, .f32⟩ : BufTy).Contents (Elt Ideal) :=
  shapeCast _ (extractStridedSlice S100000x1 ![0, 1] M slices_S100000x2_S100000x1_0_1) shapeCasts_S100000x1_S100000

/-- The kernel's edge logits from the projected embeddings M: the first endpoint's entry of column 0 plus the
    second endpoint's entry of column 1 plus the bias, as a column. -/

def sumK (M : FVec Ideal S100000x2 .f32) (x6 : FVec Ideal S1 .f32) (x8 x9 : IVec S2x1000000 32) : FVec Ideal S2000000 .f32 :=
  addf (addf (Host.gather gather_S100000_S2000000x1_S2000000_n_0_n_n_0_1_1 (projA M) (wrapCol (endA x8 x9)))
             (Host.gather gather_S100000_S2000000x1_S2000000_n_0_n_n_0_1_1 (projB M) (wrapCol (endB x8 x9))))
    (broadcastInDim S2000000 ![] bcast_S_S2000000 (shapeCast S_ x6 shapeCasts_S1_S_))

/-- The kernel's edge logits from the projected embeddings M: the first endpoint's entry of column 0 plus the
    second endpoint's entry of column 1 plus the bias, as a column. -/
def logitsK (M : FVec Ideal S100000x2 .f32) (x6 : FVec Ideal S1 .f32) (x8 x9 : IVec S2x1000000 32) : FVec Ideal S2000000x1 .f32 :=
  broadcastInDim S2000000x1 ![0] bcast_S2000000_S2000000x1_0 (sumK M x6 x8 x9)

/-- The projection weight: the first half of We beside its second half. -/
def wcombK (x5 : FVec Ideal S128x1 .f32) : FVec Ideal S64x2 .f32 :=
  concatenate S64x2 1 [⟨S64x1, extractStridedSlice S64x1 ![0, 0] x5 slices_S128x1_S64x1_0_0⟩,
    ⟨S64x1, extractStridedSlice S64x1 ![64, 0] x5 slices_S128x1_S64x1_64_0⟩] concatenates_S64x1_S64x1_S64x2_d1

variable (M : FVec Ideal S100000x2 .f32) (x5 : FVec Ideal S128x1 .f32) (x6 : FVec Ideal S1 .f32) (x8 x9 : IVec S2x1000000 32)

/-! ## The layout steps, one at a time -/

theorem endA_apply (e : Fin 2000000) : endA x8 x9 (ix1 e) = catK x8 x9 (ix2 (0 : Fin 2) e) := by
  unfold endA
  rw [shapeCast_apply _ shapeCasts_S1x2000000_S2000000 (ix1 e) (ix2 (0 : Fin 1) e)
    (by rw [Shape.rowMajor_val_two, Shape.rowMajor_val_one]; show 0 * 2000000 + e.val = e.val; omega)]
  exact extractStridedSlice_apply ![0, 0] _ slices_S2x2000000_S1x2000000_0_0 (ix2 (0 : Fin 1) e) (ix2 (0 : Fin 2) e)
    (fun a => match a with
      | ⟨0, _⟩ => by show (0 : Nat) = 0 + 0; rfl
      | ⟨1, _⟩ => by show e.val = 0 + e.val; omega)

theorem endB_apply (e : Fin 2000000) : endB x8 x9 (ix1 e) = catK x8 x9 (ix2 (1 : Fin 2) e) := by
  unfold endB
  rw [shapeCast_apply _ shapeCasts_S1x2000000_S2000000 (ix1 e) (ix2 (0 : Fin 1) e)
    (by rw [Shape.rowMajor_val_two, Shape.rowMajor_val_one]; show 0 * 2000000 + e.val = e.val; omega)]
  exact extractStridedSlice_apply ![1, 0] _ slices_S2x2000000_S1x2000000_1_0 (ix2 (0 : Fin 1) e) (ix2 (1 : Fin 2) e)
    (fun a => match a with
      | ⟨0, _⟩ => by show (1 : Nat) = 1 + 0; rfl
      | ⟨1, _⟩ => by show e.val = 0 + e.val; omega)

/-- An edge below 1000000 is the first list's. -/
theorem catK_left (r : Fin 2) (e : Fin 2000000) (h : e.val < 1000000) :
    catK x8 x9 (ix2 r e) = x8 (ix2 r (⟨e.val, h⟩ : Fin 1000000)) := by
  unfold catK
  exact concatenate_pair_apply_left (t := S2x2000000) (s₁ := S2x1000000) (s₂ := S2x1000000) (1 : Fin 2) x8 x9
    concatenates_S2x1000000_S2x1000000_S2x2000000_d1 (ix2 r e) rfl (ix2 r (⟨e.val, h⟩ : Fin 1000000))
    (fun b => match b with | ⟨0, _⟩ => rfl | ⟨1, _⟩ => rfl)

/-- An edge from 1000000 on is the second list's, 1000000 positions earlier. -/
theorem catK_right (r : Fin 2) (e : Fin 2000000) (h : 1000000 ≤ e.val) :
    catK x8 x9 (ix2 r e) = x9 (ix2 r (⟨e.val - 1000000, by omega⟩ : Fin 1000000)) := by
  unfold catK
  exact concatenate_pair_apply_right (t := S2x2000000) (s₁ := S2x1000000) (s₂ := S2x1000000) (1 : Fin 2) x8 x9
    concatenates_S2x1000000_S2x1000000_S2x2000000_d1 (ix2 r e) rfl rfl (ix2 r (⟨e.val - 1000000, by omega⟩ : Fin 1000000))
    (fun b hb => match b, hb with
      | ⟨0, _⟩, _ => rfl
      | ⟨1, _⟩, hb => absurd rfl hb)
    (by show (e.val - 1000000) + 1000000 = e.val; omega)

theorem projA_apply (n : Fin 100000) : projA M (ix1 n) = M (ix2 n (0 : Fin 2)) := by
  unfold projA
  rw [shapeCast_apply _ shapeCasts_S100000x1_S100000 (ix1 n) (ix2 n (0 : Fin 1))
    (by rw [Shape.rowMajor_val_two, Shape.rowMajor_val_one]; show n.val * 1 + 0 = n.val; omega)]
  exact extractStridedSlice_apply ![0, 0] _ slices_S100000x2_S100000x1_0_0 (ix2 n (0 : Fin 1)) (ix2 n (0 : Fin 2))
    (fun a => match a with
      | ⟨0, _⟩ => by show n.val = 0 + n.val; omega
      | ⟨1, _⟩ => by show (0 : Nat) = 0 + 0; rfl)

theorem projB_apply (n : Fin 100000) : projB M (ix1 n) = M (ix2 n (1 : Fin 2)) := by
  unfold projB
  rw [shapeCast_apply _ shapeCasts_S100000x1_S100000 (ix1 n) (ix2 n (0 : Fin 1))
    (by rw [Shape.rowMajor_val_two, Shape.rowMajor_val_one]; show n.val * 1 + 0 = n.val; omega)]
  exact extractStridedSlice_apply ![0, 1] _ slices_S100000x2_S100000x1_0_1 (ix2 n (0 : Fin 1)) (ix2 n (1 : Fin 2))
    (fun a => match a with
      | ⟨0, _⟩ => by show n.val = 0 + n.val; omega
      | ⟨1, _⟩ => by show (1 : Nat) = 1 + 0; rfl)

/-- The gather's row for edge e, through the wrapped index column. -/
theorem gatherRow_wrapCol (v : IVec S2000000 32) (e : Fin 2000000) :
    gatherRow (by decide : 0 < 100000) (wrapCol v) e = rowOfWord (wrapWord (v (ix1 e))) := by
  refine gatherRow_eq_rowOfWord _ e _ ?_
  unfold wrapCol
  rw [broadcastInDim_apply ![0] bcast_S2000000_S2000000x1_0 _ (ix2 e (0 : Fin 1)) (ix1 e)
    (fun a => match a with
      | ⟨0, _⟩ => by show e.val = if (2000000 : Nat) = 1 then 0 else e.val; rw [if_neg (by decide)])]
  rfl

/-- The bias, broadcast from the one-entry argument. -/
theorem bias_apply (i : S2000000.Idx) :
    broadcastInDim S2000000 ![] bcast_S_S2000000 (shapeCast S_ x6 shapeCasts_S1_S_) i = x6 (ix1 (0 : Fin 1)) := by
  show shapeCast S_ x6 shapeCasts_S1_S_ _ = _
  refine shapeCast_apply x6 shapeCasts_S1_S_ _ (ix1 (0 : Fin 1)) ?_
  rw [Shape.rowMajor_val_one]
  exact (Nat.lt_one_iff.mp ((S_.rowMajor _).isLt)).symm

/-! ## The logits at an edge -/

theorem logitsK_apply (e : Fin 2000000) (u : Fin 1) :
    logitsK M x6 x8 x9 (ix2 e u)
      = M (ix2 (rowOfWord (wrapWord (catK x8 x9 (ix2 (0 : Fin 2) e)))) (0 : Fin 2))
        + M (ix2 (rowOfWord (wrapWord (catK x8 x9 (ix2 (1 : Fin 2) e)))) (1 : Fin 2)) + x6 (ix1 (0 : Fin 1)) := by
  unfold logitsK
  rw [broadcastInDim_apply ![0] bcast_S2000000_S2000000x1_0 _ (ix2 e u) (ix1 e)
    (fun a => match a with
      | ⟨0, _⟩ => by show e.val = if (2000000 : Nat) = 1 then 0 else e.val; rw [if_neg (by decide)])]
  unfold sumK
  show Host.gather gather_S100000_S2000000x1_S2000000_n_0_n_n_0_1_1 (projA M) (wrapCol (endA x8 x9)) (ix1 e)
      + Host.gather gather_S100000_S2000000x1_S2000000_n_0_n_n_0_1_1 (projB M) (wrapCol (endB x8 x9)) (ix1 e)
      + broadcastInDim S2000000 ![] bcast_S_S2000000 (shapeCast S_ x6 shapeCasts_S1_S_) (ix1 e) = _
  rw [gather_vec_apply (by decide : 0 < 100000) gather_S100000_S2000000x1_S2000000_n_0_n_n_0_1_1 rfl rfl rfl rfl rfl rfl,
    gather_vec_apply (by decide : 0 < 100000) gather_S100000_S2000000x1_S2000000_n_0_n_n_0_1_1 rfl rfl rfl rfl rfl rfl,
    gatherRow_wrapCol, gatherRow_wrapCol, endA_apply, endB_apply, projA_apply, projB_apply, bias_apply]

/-! ## The projection weight's two columns -/

theorem wcombK_col0 (j : Fin 64) : wcombK x5 (ix2 j (0 : Fin 2)) = x5 (ix2 (⟨j.val, by omega⟩ : Fin 128) (0 : Fin 1)) := by
  unfold wcombK
  rw [concatenate_pair_apply_left (t := S64x2) (s₁ := S64x1) (s₂ := S64x1) (1 : Fin 2) _ _
    concatenates_S64x1_S64x1_S64x2_d1 (ix2 j (0 : Fin 2)) rfl (ix2 j (0 : Fin 1))
    (fun b => match b with | ⟨0, _⟩ => rfl | ⟨1, _⟩ => rfl)]
  exact extractStridedSlice_apply ![0, 0] x5 slices_S128x1_S64x1_0_0 (ix2 j (0 : Fin 1)) _
    (fun a => match a with
      | ⟨0, _⟩ => by show j.val = 0 + j.val; omega
      | ⟨1, _⟩ => by show (0 : Nat) = 0 + 0; rfl)

theorem wcombK_col1 (j : Fin 64) : wcombK x5 (ix2 j (1 : Fin 2)) = x5 (ix2 (⟨64 + j.val, by omega⟩ : Fin 128) (0 : Fin 1)) := by
  unfold wcombK
  rw [concatenate_pair_apply_right (t := S64x2) (s₁ := S64x1) (s₂ := S64x1) (1 : Fin 2) _ _
    concatenates_S64x1_S64x1_S64x2_d1 (ix2 j (1 : Fin 2)) rfl rfl (ix2 j (0 : Fin 1))
    (fun b hb => match b, hb with
      | ⟨0, _⟩, _ => rfl
      | ⟨1, _⟩, hb => absurd rfl hb)
    (by show 0 + 1 = 1; rfl)]
  exact extractStridedSlice_apply ![64, 0] x5 slices_S128x1_S64x1_64_0 (ix2 j (0 : Fin 1)) _
    (fun a => match a with
      | ⟨0, _⟩ => by show 64 + j.val = 64 + j.val; rfl
      | ⟨1, _⟩ => by show (0 : Nat) = 0 + 0; rfl)

end Cert.KernelIdeal.KTail

end
-- ==== Proof.Logits.lean ====
/-
  The edge logits agree.

  For an edge with endpoints a and b the reference gathers the rows z(a, ·) and z(b, ·) and projects them:
      logit = sum over j of z(a, j) * We(j) + sum over j of z(b, j) * We(64 + j) + be.
  The kernel projects every node once, M(n, 0) = sum over j of z(n, j) * We(j) and M(n, 1) = sum over j of
  z(n, j) * We(64 + j), and gathers scalars: logit = M(a, 0) + M(b, 1) + be. Gathering a row and then projecting
  it is projecting every row and then gathering, so the two agree entry by entry; no arithmetic law is used beyond
  reading both sides at an index. The reference computes the two edge lists' logits separately and stacks them;
  the kernel joins the lists first: an edge below 1000000 is the first list's, one from there on the second's.
-/
import proofs.«104134_j25340307046431_2_alg».proof.Proof.Gen.ReferenceIdeal.Read
import proofs.«104134_j25340307046431_2_alg».proof.Proof.LibRowGatherScatter
import proofs.«104134_j25340307046431_2_alg».proof.Proof.EdgeIndex
import proofs.«104134_j25340307046431_2_alg».proof.Proof.LogitsKernel
import Idealize.ShloMosaic.Lib.Pipeline.Value
import Idealize.ShloMosaic.Lib.ValueIdx

noncomputable section

namespace Cert.ReferenceIdeal.LogitsRef

open Cert.ReferenceIdeal Cert.ReferenceIdeal.Gen Cert.ReferenceIdeal.Read Idealize.ShloMosaic Idealize.ShloMosaic.ValueIdx Cert.Lib
open scoped BigOperators

variable (x0 : (⟨S100000x512, .f32⟩ : BufTy).Contents (Elt Ideal)) (x1 : (⟨S512x16, .f32⟩ : BufTy).Contents (Elt Ideal))
  (x2 : (⟨S16, .f32⟩ : BufTy).Contents (Elt Ideal)) (x3 : (⟨S16x64, .f32⟩ : BufTy).Contents (Elt Ideal))
  (x4 : (⟨S64, .f32⟩ : BufTy).Contents (Elt Ideal)) (x5 : (⟨S128x1, .f32⟩ : BufTy).Contents (Elt Ideal))
  (x6 : (⟨S1, .f32⟩ : BufTy).Contents (Elt Ideal)) (x7 : (⟨S2x3200000, .i32⟩ : BufTy).Contents (Elt Ideal))
  (xe x8 x9 : (⟨S2x1000000, .i32⟩ : BufTy).Contents (Elt Ideal))

/-- The reference's node embeddings. -/
abbrev Z : (⟨S100000x64, .f32⟩ : BufTy).Contents (Elt Ideal) := val_main_v88 (F := Ideal) x0 x1 x2 x3 x4 x7

/-- The row gathered for an edge's first endpoint. -/
theorem rowA_eq (e : Fin 1000000) :
    gatherRow (by decide : 0 < 100000) (val_main_v96 (F := Ideal) xe) e = rowOfWord (wrapWord (xe (ix2 (0 : Fin 2) e))) := by
  refine gatherRow_eq_rowOfWord _ e _ ?_
  rw [val_main_v96_apply, val_main_v95_apply, val_main_v92_apply, val_main_v94_apply, val_main_v91_apply, val_main_v93_apply,
    val_main_v90_apply, val_main_v89_apply]
  have hi : idx_main_v89 (idx_main_v90 (idx_main_v96 (ix2 e (0 : Fin 1)))) = ix2 (0 : Fin 2) e :=
    funext fun a => Fin.ext (by
      match a with
      | ⟨0, _⟩ => rfl
      | ⟨1, _⟩ => exact Nat.mod_eq_of_lt e.isLt)
  rw [hi]
  rfl

/-- The row gathered for an edge's second endpoint. -/
theorem rowB_eq (e : Fin 1000000) :
    gatherRow (by decide : 0 < 100000) (val_main_v107 (F := Ideal) xe) e = rowOfWord (wrapWord (xe (ix2 (1 : Fin 2) e))) := by
  refine gatherRow_eq_rowOfWord _ e _ ?_
  rw [val_main_v107_apply, val_main_v106_apply, val_main_v103_apply, val_main_v105_apply, val_main_v102_apply, val_main_v104_apply,
    val_main_v101_apply, val_main_v100_apply]
  have hi : idx_main_v100 (idx_main_v101 (idx_main_v107 (ix2 e (0 : Fin 1)))) = ix2 (1 : Fin 2) e :=
    funext fun a => Fin.ext (by
      match a with
      | ⟨0, _⟩ => rfl
      | ⟨1, _⟩ => exact Nat.mod_eq_of_lt e.isLt)
  rw [hi]
  rfl

/-- One list's logits at an edge: the two endpoints' rows of z against the two halves of We, plus the bias. -/
theorem branch_apply (e : Fin 1000000) (u : Fin 1) :
    val_main_v114 (F := Ideal) x0 x1 x2 x3 x4 x5 x6 x7 xe (ix2 e u)
      = (∑ j : Fin 64, Z x0 x1 x2 x3 x4 x7 (ix2 (rowOfWord (wrapWord (xe (ix2 (0 : Fin 2) e)))) j)
            * x5 (ix2 (⟨j.val, by omega⟩ : Fin 128) (0 : Fin 1)))
        + (∑ j : Fin 64, Z x0 x1 x2 x3 x4 x7 (ix2 (rowOfWord (wrapWord (xe (ix2 (1 : Fin 2) e)))) j)
            * x5 (ix2 (⟨64 + j.val, by omega⟩ : Fin 128) (0 : Fin 1)))
        + x6 (ix1 (0 : Fin 1)) := by
  obtain rfl : u = 0 := Subsingleton.elim _ _
  rw [val_main_v114_apply, val_main_v111_apply]
  show (val_main_v99 (F := Ideal) x0 x1 x2 x3 x4 x5 x7 xe (ix2 e 0) + val_main_v110 (F := Ideal) x0 x1 x2 x3 x4 x5 x7 xe (ix2 e 0))
      + val_main_v113 (F := Ideal) x6 (ix2 e 0) = _
  refine congrArg₂ (· + ·) (congrArg₂ (· + ·) ?_ ?_) ?_
  · rw [val_main_v99_apply]
    refine Finset.sum_congr rfl fun j _ => ?_
    have el : lidx_main_v99 (ix2 e (0 : Fin 1)) j = ix2 e j :=
      funext fun a => Fin.ext (by match a with | ⟨0, _⟩ => rfl | ⟨1, _⟩ => rfl)
    rw [el, val_main_v98_apply]
    unfold val_main_v97
    rw [gather_rows_apply (by decide : 0 < 100000) gather_S100000x64_S1000000x1_S1000000x64_1_0_n_n_0_1_164 rfl rfl rfl rfl rfl rfl,
      rowA_eq]
    exact congrArg _ (congrArg x5 (funext fun a => Fin.ext (by match a with | ⟨0, _⟩ => rfl | ⟨1, _⟩ => rfl)))
  · rw [val_main_v110_apply]
    refine Finset.sum_congr rfl fun j _ => ?_
    have el : lidx_main_v110 (ix2 e (0 : Fin 1)) j = ix2 e j :=
      funext fun a => Fin.ext (by match a with | ⟨0, _⟩ => rfl | ⟨1, _⟩ => rfl)
    rw [el, val_main_v109_apply]
    unfold val_main_v108
    rw [gather_rows_apply (by decide : 0 < 100000) gather_S100000x64_S1000000x1_S1000000x64_1_0_n_n_0_1_164 rfl rfl rfl rfl rfl rfl,
      rowB_eq]
    exact congrArg _ (congrArg x5 (funext fun a => Fin.ext (by match a with | ⟨0, _⟩ => rfl | ⟨1, _⟩ => rfl)))
  · rw [val_main_v113_apply, val_main_v112_apply]
    exact congrArg x6 (funext fun a => Fin.ext (by match a with | ⟨0, _⟩ => rfl))

/-- The second list's logits are the same function of the second list. -/
theorem second_branch : val_main_v140 (F := Ideal) x0 x1 x2 x3 x4 x5 x6 x7 x9 = val_main_v114 (F := Ideal) x0 x1 x2 x3 x4 x5 x6 x7 x9 := rfl

/-- The kernel's logits, from any array M that is entry by entry the embeddings times the two halves of We side by
    side, are the reference's. -/
theorem logits_eq (M : FVec Ideal Cert.KernelIdeal.S100000x2 .f32)
    (hM : ∀ (n : Fin 100000) (q : Fin 2),
      M (ix2 n q) = ∑ j : Fin 64, Z x0 x1 x2 x3 x4 x7 (ix2 n j) * Cert.KernelIdeal.KTail.wcombK x5 (ix2 j q)) :
    Cert.KernelIdeal.KTail.logitsK M x6 x8 x9 = val_main_v141 (F := Ideal) x0 x1 x2 x3 x4 x5 x6 x7 x8 x9 := by
  funext i
  obtain ⟨e, u, rfl⟩ : ∃ (e : Fin 2000000) (u : Fin 1), i = ix2 e u := ⟨i 0, i 1, eq_ix2 i⟩
  rw [Cert.KernelIdeal.KTail.logitsK_apply, hM, hM]
  simp only [Cert.KernelIdeal.KTail.wcombK_col0, Cert.KernelIdeal.KTail.wcombK_col1]
  unfold val_main_v141
  by_cases h : e.val < 1000000
  · rw [Cert.KernelIdeal.KTail.catK_left x8 x9 _ e h, Cert.KernelIdeal.KTail.catK_left x8 x9 _ e h]
    rw [concatenate_pair_apply_left (t := S2000000x1) (s₁ := S1000000x1) (s₂ := S1000000x1) (0 : Fin 2) _ _
      concatenates_S1000000x1_S1000000x1_S2000000x1_d0 (ix2 e u) rfl (ix2 (⟨e.val, h⟩ : Fin 1000000) u)
      (fun b => match b with | ⟨0, _⟩ => rfl | ⟨1, _⟩ => rfl)]
    exact (branch_apply x0 x1 x2 x3 x4 x5 x6 x7 x8 ⟨e.val, h⟩ u).symm
  · have h' : 1000000 ≤ e.val := Nat.le_of_not_lt h
    rw [Cert.KernelIdeal.KTail.catK_right x8 x9 _ e h', Cert.KernelIdeal.KTail.catK_right x8 x9 _ e h']
    rw [concatenate_pair_apply_right (t := S2000000x1) (s₁ := S1000000x1) (s₂ := S1000000x1) (0 : Fin 2) _ _
      concatenates_S1000000x1_S1000000x1_S2000000x1_d0 (ix2 e u) rfl rfl (ix2 (⟨e.val - 1000000, by omega⟩ : Fin 1000000) u)
      (fun b hb => match b, hb with
        | ⟨0, _⟩, hb => absurd rfl hb
        | ⟨1, _⟩, _ => rfl)
      (by show (e.val - 1000000) + 1000000 = e.val; omega)]
    rw [second_branch]
    exact (branch_apply x0 x1 x2 x3 x4 x5 x6 x7 x9 ⟨e.val - 1000000, by omega⟩ u).symm

end Cert.ReferenceIdeal.LogitsRef

end
-- ==== Proof.AggregateLaw.lean ====
/-
  The one law that joins the two programs' second graph layer.

  Both programs aggregate, for a node n, over the edges e landing on n. The reference projects first and
  aggregates after: sum over e of (sum over k of h e k * w k) * nu e. The kernel aggregates first and projects
  after: sum over k of (sum over e of h e k * nu e) * w k. On the extended reals the two agree when every h e k,
  every weight w k and every edge coefficient nu e is a real number: both are then the double sum of
  h e k * nu e * w k, in either order. (With an infinite entry the law fails: distributing a factor over a sum
  that holds both infinities is not sound.) Each aggregation starts from a zero accumulator, which adds nothing.
-/
import Mathlib.Data.EReal.Basic
import Mathlib.Data.EReal.Operations
import Mathlib.Algebra.BigOperators.Ring.Finset
import Mathlib.Algebra.BigOperators.Group.Finset.Sigma
import proofs.«104134_j25340307046431_2_alg».proof.Proof.LibRealChain

namespace Cert.Lib

open scoped BigOperators

/-- The image of a finite real sum is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Aggregating real rows over a set of edges and then projecting is projecting each row and then aggregating. -/
theorem aggregate_then_project {ι κ : Type*} [Fintype κ] (S : Finset ι) (h : ι → κ → EReal) (nu : ι → EReal)
    (w : κ → EReal) (hh : ∀ e k, IsReal (h e k)) (hnu : ∀ e, IsReal (nu e)) (hw : ∀ k, IsReal (w k)) :
    ∑ k, (0 + ∑ e ∈ S, h e k * nu e) * w k = 0 + ∑ e ∈ S, (∑ k, h e k * w k) * nu e := by
  classical
  choose h' hh' using hh
  choose nu' hnu' using hnu
  choose w' hw' using hw
  simp only [hh', hnu', hw', zero_add, ← EReal.coe_mul, ← coe_finset_sum]
  refine congrArg _ ?_
  simp only [Finset.sum_mul]
  rw [Finset.sum_comm]
  refine Finset.sum_congr rfl fun e _ => Finset.sum_congr rfl fun k _ => ?_
  ring

end Cert.Lib
-- ==== Proof.Embeddings.lean ====
/-
  The node embeddings: the kernel's "aggregate, then project" is the reference's "project, then aggregate".

  Write H for the hidden features, nu e for edge e's coefficient, g e for the row that edge e gathers and
  S n for the set of edges landing on node n. The reference's embeddings are
      z(n, q) = (0 + sum over e in S n of (sum over k of H(g e, k) * W2(k, q)) * nu e) + b2(q),
  the kernel's are
      z(n, q) = (sum over k of (0 + sum over e in S n of H(g e, k) * nu e) * W2(k, q)) + b2(q):
  it aggregates the 16 hidden columns first and multiplies by W2 after. The second graph layer of the reference
  recomputes the edge columns and coefficients from the edge list; they are the first layer's, term for term.
  With H, nu and W2 real the two double sums agree.
-/
import proofs.«104134_j25340307046431_2_alg».proof.Proof.Gen.ReferenceIdeal.Read
import proofs.«104134_j25340307046431_2_alg».proof.Proof.LibRowGatherScatter
import proofs.«104134_j25340307046431_2_alg».proof.Proof.LibRealChain
import proofs.«104134_j25340307046431_2_alg».proof.Proof.AggregateLaw
import proofs.«104134_j25340307046431_2_alg».proof.Proof.HiddenReal
import Idealize.ShloMosaic.Lib.ValueIdx
import Idealize.ShloMosaic.PureOps.Ideal.Laws

noncomputable section

namespace Cert.ReferenceIdeal.ZBridge

open Cert.ReferenceIdeal Cert.ReferenceIdeal.Gen Cert.ReferenceIdeal.Read Idealize.ShloMosaic Idealize.ShloMosaic.ValueIdx Cert.Lib
open scoped BigOperators

variable (x0 : (⟨S100000x512, .f32⟩ : BufTy).Contents (Elt Ideal)) (x1 : (⟨S512x16, .f32⟩ : BufTy).Contents (Elt Ideal))
  (x2 : (⟨S16, .f32⟩ : BufTy).Contents (Elt Ideal)) (x3 : (⟨S16x64, .f32⟩ : BufTy).Contents (Elt Ideal))
  (x4 : (⟨S64, .f32⟩ : BufTy).Contents (Elt Ideal)) (x7 : (⟨S2x3200000, .i32⟩ : BufTy).Contents (Elt Ideal))

/-- The row edge e gathers: its source index, negative ones wrapped, clamped into the node range. -/
abbrev srcRow (e : Fin 3300000) : Fin 100000 :=
  gatherRow (by decide : 0 < 100000) (val_main_v33 (F := Ideal) x7) e

/-- The edges landing on node n. -/
abbrev landing (n : Fin 100000) : Finset (Fin 3300000) := hits (val_main_v39 (F := Ideal) x7) n.val

/-- The second layer's recomputed destination column, gather column and coefficients are the first layer's. -/
theorem dstcol_eq : val_main_v84 (F := Ideal) x7 = val_main_v39 (F := Ideal) x7 := rfl
theorem srccol_eq : val_main_v78 (F := Ideal) x7 = val_main_v33 (F := Ideal) x7 := rfl
theorem coeff_eq : val_main_v71 (F := Ideal) x7 = val_main_v26 (F := Ideal) x7 := rfl

/-- The kernel's second aggregate, as a function of the hidden features: rows gathered at the source column,
    scaled by the edge coefficients, summed into the destination rows from zero. -/
def agg2 (H : FVec Ideal S100000x16 .f32) : FVec Ideal S100000x16 .f32 :=
  Host.scatterAdd (F := Ideal) scatter_S100000x16_S3300000x1_S3300000x16_1_0_0_1 (val_main_v38 (F := Ideal)) (val_main_v39 (F := Ideal) x7)
    (mulf (F := Ideal) (φ := .f32) (Host.gather (α := EReal) gather_S100000x16_S3300000x1_S3300000x16_1_0_n_n_0_1_116 H (val_main_v33 (F := Ideal) x7))
      (val_main_v36 (F := Ideal) x7))

/-- The coefficient column broadcast over 16 columns, read at (e, k), is edge e's coefficient. -/
theorem coeff16_apply (e : Fin 3300000) (k : Fin 16) :
    val_main_v36 (F := Ideal) x7 (ix2 e k) = val_main_v26 (F := Ideal) x7 (ix1 e) := by
  rw [val_main_v36_apply, val_main_v35_apply]
  exact congrArg _ (funext fun a => Fin.ext (by match a with | ⟨0, _⟩ => rfl))

/-- The same over 64 columns. -/
theorem coeff64_apply (e : Fin 3300000) (q : Fin 64) :
    val_main_v81 (F := Ideal) x7 (ix2 e q) = val_main_v26 (F := Ideal) x7 (ix1 e) := by
  rw [val_main_v81_apply, val_main_v80_apply]
  exact congrArg _ (funext fun a => Fin.ext (by match a with | ⟨0, _⟩ => rfl))

theorem agg2_apply (H : FVec Ideal S100000x16 .f32) (n : Fin 100000) (k : Fin 16) :
    agg2 x7 H (ix2 n k)
      = 0 + ∑ e ∈ landing x7 n, H (ix2 (srcRow x7 e) k) * val_main_v26 (F := Ideal) x7 (ix1 e) := by
  unfold agg2
  rw [scatterAdd_rows_apply scatter_S100000x16_S3300000x1_S3300000x16_1_0_0_1 rfl rfl rfl rfl]
  have hz : val_main_v38 (F := Ideal) (ix2 n k) = 0 := by
    rw [val_main_v38_apply]; exact Ideal.ofBits_zero_f32
  rw [hz]
  refine congrArg (0 + ·) (Finset.sum_congr rfl fun e _ => ?_)
  show Host.gather gather_S100000x16_S3300000x1_S3300000x16_1_0_n_n_0_1_116 H (val_main_v33 (F := Ideal) x7) (ix2 e k)
      * val_main_v36 (F := Ideal) x7 (ix2 e k) = _
  rw [gather_rows_apply (by decide : 0 < 100000) gather_S100000x16_S3300000x1_S3300000x16_1_0_n_n_0_1_116 rfl rfl rfl rfl rfl rfl,
    coeff16_apply]

/-- The reference's aggregate of projected rows, read at (n, q). -/
theorem aggProj_apply (n : Fin 100000) (q : Fin 64) :
    val_main_v85 (F := Ideal) x0 x1 x2 x3 x7 (ix2 n q)
      = 0 + ∑ e ∈ landing x7 n, (∑ k : Fin 16, val_main_v44 (F := Ideal) x0 x1 x2 x7 (ix2 (srcRow x7 e) k) * x3 (ix2 k q))
          * val_main_v26 (F := Ideal) x7 (ix1 e) := by
  unfold val_main_v85
  rw [scatterAdd_rows_apply scatter_S100000x64_S3300000x1_S3300000x64_1_0_0_1 rfl rfl rfl rfl]
  have hz : val_main_v83 (F := Ideal) (ix2 n q) = 0 := by
    rw [val_main_v83_apply]; exact Ideal.ofBits_zero_f32
  rw [hz]
  refine congrArg (0 + ·) (Finset.sum_congr rfl fun e _ => ?_)
  rw [val_main_v82_apply]
  show val_main_v79 (F := Ideal) x0 x1 x2 x3 x7 (ix2 e q) * val_main_v81 (F := Ideal) x7 (ix2 e q) = _
  rw [coeff64_apply]
  refine congrArg (· * val_main_v26 (F := Ideal) x7 (ix1 e)) ?_
  unfold val_main_v79
  rw [gather_rows_apply (by decide : 0 < 100000) gather_S100000x64_S3300000x1_S3300000x64_1_0_n_n_0_1_164 rfl rfl rfl rfl rfl rfl,
    val_main_v72_apply]
  refine Finset.sum_congr rfl fun k _ => ?_
  have el : lidx_main_v72 (ix2 (gatherRow (by decide : 0 < 100000) (val_main_v78 (F := Ideal) x7) e) q) k = ix2 (srcRow x7 e) k :=
    funext fun a => Fin.ext (by match a with | ⟨0, _⟩ => rfl | ⟨1, _⟩ => rfl)
  have er : ridx_main_v72 (ix2 (gatherRow (by decide : 0 < 100000) (val_main_v78 (F := Ideal) x7) e) q) k = ix2 k q :=
    funext fun a => Fin.ext (by match a with | ⟨0, _⟩ => rfl | ⟨1, _⟩ => rfl)
  rw [el, er]

/-- The embeddings agree: for any array M that is, entry by entry, the product of the kernel's second aggregate
    with W2, M plus the bias row is the reference's embeddings — when the float inputs are real. -/
theorem embeddings_eq (M : FVec Ideal S100000x64 .f32)
    (hM : ∀ (p : Fin 100000) (q : Fin 64),
      M (ix2 p q) = ∑ k : Fin 16, agg2 x7 (val_main_v44 (F := Ideal) x0 x1 x2 x7) (ix2 p k) * x3 (ix2 k q))
    (h0 : ∀ i, IsReal (x0 i)) (h1 : ∀ i, IsReal (x1 i)) (h2 : ∀ i, IsReal (x2 i)) (h3 : ∀ i, IsReal (x3 i)) :
    addf (F := Ideal) (φ := .f32) M (val_main_v87 (F := Ideal) x4) = val_main_v88 (F := Ideal) x0 x1 x2 x3 x4 x7 := by
  funext i
  obtain ⟨p, q, rfl⟩ : ∃ (p : Fin 100000) (q : Fin 64), i = ix2 p q := ⟨i 0, i 1, eq_ix2 i⟩
  rw [val_main_v88_apply]
  show M (ix2 p q) + val_main_v87 (F := Ideal) x4 (ix2 p q) = _ + _
  refine congrArg (· + val_main_v87 (F := Ideal) x4 (ix2 p q)) ?_
  rw [hM, aggProj_apply]
  simp only [agg2_apply]
  exact aggregate_then_project (landing x7 p)
    (fun e k => val_main_v44 (F := Ideal) x0 x1 x2 x7 (ix2 (srcRow x7 e) k))
    (fun e => val_main_v26 (F := Ideal) x7 (ix1 e)) (fun k => x3 (ix2 k q))
    (fun e k => RefReal.hidden_real x0 x1 x2 x7 h0 h1 h2 _) (fun e => RefReal.norm_real x7 _) (fun k => h3 _)

end Cert.ReferenceIdeal.ZBridge

end
-- ==== Proof.KernelFold.lean ====
/-
  Reading the kernel's final valuation, part two: what each segment computes.

  Before the first product the host operations build, from the edge list, the source and destination columns
  (the given edges followed by one self-loop per node) and the edge coefficients: these are, term for term, the
  reference's. The first product is the reference's first matrix product, entry by entry. The stretch after it
  gathers, scales, aggregates, adds the bias and clamps at zero: the reference's hidden features. The next stretch
  aggregates the hidden features once more; the second product multiplies that aggregate by W2; adding the second
  bias gives the node embeddings, which equal the reference's when the float inputs are real (the aggregate law).
  The third product projects the embeddings on the two halves of We, and the last stretch gathers the edge logits,
  which equal the reference's entry by entry.
-/
import proofs.«104134_j25340307046431_2_alg».proof.Proof.Gen.KernelIdeal.Frame
import proofs.«104134_j25340307046431_2_alg».proof.Proof.Gen.ReferenceIdeal.Read
import proofs.«104134_j25340307046431_2_alg».proof.Proof.KernelFoldArgs
import proofs.«104134_j25340307046431_2_alg».proof.Proof.RegionArrays
import proofs.«104134_j25340307046431_2_alg».proof.Proof.HiddenReal
import proofs.«104134_j25340307046431_2_alg».proof.Proof.LogitsKernel
import proofs.«104134_j25340307046431_2_alg».proof.Proof.Logits
import proofs.«104134_j25340307046431_2_alg».proof.Proof.Embeddings
import Idealize.ShloMosaic.PureOps.Ideal

set_option maxRecDepth 16384

noncomputable section

namespace Cert.KernelIdeal.KFold

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read
open scoped BigOperators

variable (m : (ℓ : Loc nD τ sig) → Buf (Elt Ideal) ℓ) (ρ : Dev nD → PrngReg) (c : Dev nD)

/-- The program's arguments as launched, by position. -/
abbrev A0 : FVec Ideal S100000x512 .f32 := m ((c : Thread nD τ).loc main_arg0)
abbrev A1 : FVec Ideal S512x16 .f32 := m ((c : Thread nD τ).loc main_arg1)
abbrev A2 : FVec Ideal S16 .f32 := m ((c : Thread nD τ).loc main_arg2)
abbrev A3 : FVec Ideal S16x64 .f32 := m ((c : Thread nD τ).loc main_arg3)
abbrev A4 : FVec Ideal S64 .f32 := m ((c : Thread nD τ).loc main_arg4)
abbrev A5 : FVec Ideal S128x1 .f32 := m ((c : Thread nD τ).loc main_arg5)
abbrev A6 : FVec Ideal S1 .f32 := m ((c : Thread nD τ).loc main_arg6)
abbrev A7 : IVec S2x3200000 32 := m ((c : Thread nD τ).loc main_arg7)
abbrev A8 : IVec S2x1000000 32 := m ((c : Thread nD τ).loc main_arg8)
abbrev A9 : IVec S2x1000000 32 := m ((c : Thread nD τ).loc main_arg9)

/-! ## Before the first product: the edge columns and coefficients -/

theorem W1_v3 : (W1 m ρ c (Proc.devRef .tc main_v3) : IVec S3300000 32) = val_main_v3 (F := Ideal) (A7 m c) := by
  show StableHlo.after hostOps0 (W0 m ρ c) (Proc.devRef .tc main_v3) = _
  dsimp only [hostOps0]
  after_results_simp <;> rfl

theorem W1_v6 : (W1 m ρ c (Proc.devRef .tc main_v6) : IVec S3300000 32) = val_main_v6 (F := Ideal) (A7 m c) := by
  show StableHlo.after hostOps0 (W0 m ρ c) (Proc.devRef .tc main_v6) = _
  dsimp only [hostOps0]
  after_results_simp <;> rfl

theorem W1_v27 : (W1 m ρ c (Proc.devRef .tc main_v27) : FVec Ideal S3300000x1 .f32) = val_main_v35 (F := Ideal) (A7 m c) := by
  show StableHlo.after hostOps0 (W0 m ρ c) (Proc.devRef .tc main_v27) = _
  dsimp only [hostOps0]
  after_results_simp <;> rfl

/-! ## The first product is the reference's -/

theorem prod0_eq (p : Fin 100000) (q : Fin 16) :
    (∑ k : Fin 512, A0 m c (ix2 p k) * A1 m c (ix2 k q) : EReal) = val_main_v27 (F := Ideal) (A0 m c) (A1 m c) (ix2 p q) := by
  rw [val_main_v27_apply]
  refine Finset.sum_congr rfl fun k _ => ?_
  have el : lidx_main_v27 (ix2 p q) k = ix2 p k := funext fun a => Fin.ext (by match a with | ⟨0, _⟩ => rfl | ⟨1, _⟩ => rfl)
  have er : ridx_main_v27 (ix2 p q) k = ix2 k q := funext fun a => Fin.ext (by match a with | ⟨0, _⟩ => rfl | ⟨1, _⟩ => rfl)
  rw [el, er]

theorem W2_v28 : (W2 m ρ c (Proc.devRef .tc main_v28) : FVec Ideal S100000x16 .f32) = val_main_v27 (F := Ideal) (A0 m c) (A1 m c) := by
  refine (W2_arr m ρ c 2).trans ?_
  funext i
  obtain ⟨p, q, rfl⟩ : ∃ (p : Fin 100000) (q : Fin 16), i = ix2 p q := ⟨i 0, i 1, eq_ix2 i⟩
  exact (RegionValue.region0_entry_of (V1 m ρ) c (A0 m c) (A1 m c) (W1_arg0 m ρ c) (W1_arg1 m ρ c) p q).trans (prod0_eq m c p q)

/-! ## Between the first and the second product: the hidden features and their aggregate -/

theorem W2_v3 : (W2 m ρ c (Proc.devRef .tc main_v3) : IVec S3300000 32) = val_main_v3 (F := Ideal) (A7 m c) :=
  (W2_of_ne m ρ c main_v3 (by decide)).trans (W1_v3 m ρ c)
theorem W2_v6 : (W2 m ρ c (Proc.devRef .tc main_v6) : IVec S3300000 32) = val_main_v6 (F := Ideal) (A7 m c) :=
  (W2_of_ne m ρ c main_v6 (by decide)).trans (W1_v6 m ρ c)
theorem W2_v27 : (W2 m ρ c (Proc.devRef .tc main_v27) : FVec Ideal S3300000x1 .f32) = val_main_v35 (F := Ideal) (A7 m c) :=
  (W2_of_ne m ρ c main_v27 (by decide)).trans (W1_v27 m ρ c)

/-- The typed views of the clamp's three buffers are the identity on contents. -/
theorem toBuf_v44 (v : FVec Ideal S100000x16 .f32) :
    (TRef.of main_v44 : TRef sig ⟨S100000x16, .f32⟩).toBuf (Val := Elt Ideal) v = v := rfl
theorem ofBuf_v43 (v : FVec Ideal S100000x16 .f32) :
    (TRef.of main_v43 : TRef sig ⟨S100000x16, .f32⟩).ofBuf (Val := Elt Ideal) v = v := rfl
theorem ofBuf_toBuf_c0v0 (v : FVec Ideal S100000x16 .f32) :
    (TRef.of main_call0_v0 : TRef sig ⟨S100000x16, .f32⟩).ofBuf (Val := Elt Ideal)
      ((TRef.of main_call0_v0 : TRef sig ⟨S100000x16, .f32⟩).toBuf (Val := Elt Ideal) v) = v := rfl
theorem ofBuf_toBuf_c0cst (v : FVec Ideal S_ .f32) :
    (TRef.of main_call0_cst : TRef sig ⟨S_, .f32⟩).ofBuf (Val := Elt Ideal)
      ((TRef.of main_call0_cst : TRef sig ⟨S_, .f32⟩).toBuf (Val := Elt Ideal) v) = v := rfl

theorem W4_v44 : (W4 m ρ c (Proc.devRef .tc main_v44) : FVec Ideal S100000x16 .f32)
    = val_main_v44 (F := Ideal) (A0 m c) (A1 m c) (A2 m c) (A7 m c) := by
  show StableHlo.after hostOps1_1 (StableHlo.after hostOps1 (W2 m ρ c)) (Proc.devRef .tc main_v44) = _
  dsimp only [hostOps1_1, hostOps1]
  after_results_simp
  rw [W2_v28, W2_v3, W2_v6, W2_v27, W2_arg2]
  simp only [val_main_v44, val_main_v43, val_main_v42, val_main_v41, val_main_v40, val_main_v39, val_main_v38, val_main_v37,
    val_main_v36, val_main_v34, val_main_v33, val_main_v32, val_main_v31, val_main_v30, val_main_v29, val_main_v28,
    val_main_c_4, val_main_c_5, val_main_cst_6, val_main_call0_v0, val_main_call0_cst]
  rw [ofBuf_toBuf_c0cst, ofBuf_toBuf_c0v0, ofBuf_v43, toBuf_v44]
  rfl

theorem W4_v3 : (W4 m ρ c (Proc.devRef .tc main_v3) : IVec S3300000 32) = val_main_v3 (F := Ideal) (A7 m c) :=
  calc W4 m ρ c (Proc.devRef .tc main_v3) = W3 m ρ c (Proc.devRef .tc main_v3) := by host_skip
    _ = W2 m ρ c (Proc.devRef .tc main_v3) := by host_skip
    _ = _ := W2_v3 m ρ c
theorem W4_v6 : (W4 m ρ c (Proc.devRef .tc main_v6) : IVec S3300000 32) = val_main_v6 (F := Ideal) (A7 m c) :=
  calc W4 m ρ c (Proc.devRef .tc main_v6) = W3 m ρ c (Proc.devRef .tc main_v6) := by host_skip
    _ = W2 m ρ c (Proc.devRef .tc main_v6) := by host_skip
    _ = _ := W2_v6 m ρ c
theorem W4_v27 : (W4 m ρ c (Proc.devRef .tc main_v27) : FVec Ideal S3300000x1 .f32) = val_main_v35 (F := Ideal) (A7 m c) :=
  calc W4 m ρ c (Proc.devRef .tc main_v27) = W3 m ρ c (Proc.devRef .tc main_v27) := by host_skip
    _ = W2 m ρ c (Proc.devRef .tc main_v27) := by host_skip
    _ = _ := W2_v27 m ρ c

theorem W5_v56 : (W5 m ρ c (Proc.devRef .tc main_v56) : FVec Ideal S100000x16 .f32)
    = Cert.ReferenceIdeal.ZBridge.agg2 (A7 m c) (val_main_v44 (F := Ideal) (A0 m c) (A1 m c) (A2 m c) (A7 m c)) := by
  have e44 := W4_v44 m ρ c
  have e3 := W4_v3 m ρ c
  have e6 := W4_v6 m ρ c
  have e27 := W4_v27 m ρ c
  show StableHlo.after hostOps1_2 (W4 m ρ c) (Proc.devRef .tc main_v56) = _
  generalize W4 m ρ c = W at e44 e3 e6 e27 ⊢
  dsimp only [hostOps1_2]
  after_results_simp
  rw [e44, e3, e6, e27]
  simp only [Cert.ReferenceIdeal.ZBridge.agg2, val_main_v39, val_main_v38, val_main_v36, val_main_v33, val_main_v32,
    val_main_v31, val_main_v30, val_main_v29, val_main_v28, val_main_c_4, val_main_c_5, val_main_cst_6]
  rfl

/-- The second product, entry by entry, over the aggregate and W2. -/
theorem W6_v57_entry (p : Fin 100000) (q : Fin 64) :
    (W6 m ρ c (Proc.devRef .tc main_v57) : FVec Ideal S100000x64 .f32) (ix2 p q)
      = ∑ k : Fin 16, Cert.ReferenceIdeal.ZBridge.agg2 (A7 m c) (val_main_v44 (F := Ideal) (A0 m c) (A1 m c) (A2 m c) (A7 m c)) (ix2 p k)
          * A3 m c (ix2 k q) :=
  (congrFun (W6_arr m ρ c 2) (ix2 p q)).trans
    (RegionValue.region1_entry_of (V5 m ρ) c _ (A3 m c) (W5_v56 m ρ c) (W5_arg3 m ρ c) p q)

/-! ## Between the second and the third product: the embeddings and the projection weight -/

theorem W7_v60_raw : (W7 m ρ c (Proc.devRef .tc main_v60) : FVec Ideal S100000x64 .f32)
    = addf (F := Ideal) (φ := .f32) (W6 m ρ c (Proc.devRef .tc main_v57))
        (broadcastInDim S100000x64 ![0, 1] bcast_S1x64_S100000x64_0_1 (broadcastInDim S1x64 ![1] bcast_S64_S1x64_1 (W6 m ρ c (Proc.devRef .tc main_arg4)))) := by
  show StableHlo.after hostOps2 (W6 m ρ c) (Proc.devRef .tc main_v60) = _
  dsimp only [hostOps2]
  after_results_simp <;> rfl

theorem W7_v63_raw : (W7 m ρ c (Proc.devRef .tc main_v63) : FVec Ideal S64x2 .f32)
    = KTail.wcombK (W6 m ρ c (Proc.devRef .tc main_arg5)) := by
  show StableHlo.after hostOps2 (W6 m ρ c) (Proc.devRef .tc main_v63) = _
  dsimp only [hostOps2]
  after_results_simp
  rfl

variable (h0 : ∀ i, Cert.Lib.IsReal (A0 m c i)) (h1 : ∀ i, Cert.Lib.IsReal (A1 m c i))
  (h2 : ∀ i, Cert.Lib.IsReal (A2 m c i)) (h3 : ∀ i, Cert.Lib.IsReal (A3 m c i))

include h0 h1 h2 h3 in
/-- The kernel's node embeddings are the reference's, when the first four float arguments are real. -/
theorem W7_v60 : (W7 m ρ c (Proc.devRef .tc main_v60) : FVec Ideal S100000x64 .f32)
    = val_main_v88 (F := Ideal) (A0 m c) (A1 m c) (A2 m c) (A3 m c) (A4 m c) (A7 m c) := by
  rw [W7_v60_raw, W6_arg4]
  exact Cert.ReferenceIdeal.ZBridge.embeddings_eq (A0 m c) (A1 m c) (A2 m c) (A3 m c) (A4 m c) (A7 m c)
    (W6 m ρ c (Proc.devRef .tc main_v57)) (W6_v57_entry m ρ c) h0 h1 h2 h3

theorem W7_v63 : (W7 m ρ c (Proc.devRef .tc main_v63) : FVec Ideal S64x2 .f32) = KTail.wcombK (A5 m c) := by
  rw [W7_v63_raw, W6_arg5]

include h0 h1 h2 h3 in
/-- The third product, entry by entry, over the embeddings and the projection weight. -/
theorem W8_v64_entry (p : Fin 100000) (q : Fin 2) :
    (W8 m ρ c (Proc.devRef .tc main_v64) : FVec Ideal S100000x2 .f32) (ix2 p q)
      = ∑ j : Fin 64, val_main_v88 (F := Ideal) (A0 m c) (A1 m c) (A2 m c) (A3 m c) (A4 m c) (A7 m c) (ix2 p j)
          * KTail.wcombK (A5 m c) (ix2 j q) :=
  (congrFun (W8_arr m ρ c 2) (ix2 p q)).trans
    (RegionValue.region2_entry_of (V7 m ρ) c _ _ (W7_v60 m ρ c h0 h1 h2 h3) (W7_v63 m ρ c) p q)

/-! ## After the third product: the logits -/

set_option maxHeartbeats 1600000 in
theorem W9_v92_raw : (W9 m ρ c (Proc.devRef .tc main_v92) : FVec Ideal S2000000x1 .f32)
    = KTail.logitsK (W8 m ρ c (Proc.devRef .tc main_v64)) (W8 m ρ c (Proc.devRef .tc main_arg6))
        (W8 m ρ c (Proc.devRef .tc main_arg8)) (W8 m ρ c (Proc.devRef .tc main_arg9)) := by
  show StableHlo.after hostOps3 (W8 m ρ c) (Proc.devRef .tc main_v92) = _
  dsimp only [hostOps3]
  after_results_simp <;> rfl

include h0 h1 h2 h3 in
/-- The kernel's logits are the reference's. -/
theorem W9_v92 : (W9 m ρ c (Proc.devRef .tc main_v92) : FVec Ideal S2000000x1 .f32)
    = val_main_v141 (F := Ideal) (A0 m c) (A1 m c) (A2 m c) (A3 m c) (A4 m c) (A5 m c) (A6 m c) (A7 m c) (A8 m c) (A9 m c) := by
  rw [W9_v92_raw, W8_arg6, W8_arg8, W8_arg9]
  exact Cert.ReferenceIdeal.LogitsRef.logits_eq (A0 m c) (A1 m c) (A2 m c) (A3 m c) (A4 m c) (A5 m c) (A6 m c) (A7 m c) (A8 m c) (A9 m c)
    (W8 m ρ c (Proc.devRef .tc main_v64)) (W8_v64_entry m ρ c h0 h1 h2 h3)

include h0 h1 h2 h3 in
/-- The embeddings, read at the end of the program. -/
theorem W9_v60_val : (W9 m ρ c (Proc.devRef .tc main_v60) : FVec Ideal S100000x64 .f32)
    = val_main_v88 (F := Ideal) (A0 m c) (A1 m c) (A2 m c) (A3 m c) (A4 m c) (A7 m c) :=
  (W9_v60 m ρ c).trans (W7_v60 m ρ c h0 h1 h2 h3)

end Cert.KernelIdeal.KFold

end
-- ==== Proof.KernelValue.lean ====
/-
  The idealized kernel's run with its two results named.

  Every weakly fair execution of the kernel terminates, nothing faulting, with the node embeddings and the edge
  logits at the reference's stage functions of the launch arguments, and the arguments unchanged — provided the
  entries of x, W1, b1 and W2 are real numbers, which the second layer's law needs.
-/
import proofs.«104134_j25340307046431_2_alg».proof.Proof.KernelRun
import proofs.«104134_j25340307046431_2_alg».proof.Proof.KernelFold

set_option maxRecDepth 16384

noncomputable section

namespace Cert.KernelIdeal.KValue

open Cert.KernelIdeal Cert.KernelIdeal.Gen Cert.KernelIdeal.KFold
open Idealize.ShloMosaic Idealize.ShloMosaic.TcCoe Idealize.SL.Sem
open Cert.ReferenceIdeal.Read

variable (m : (ℓ : Loc nD τ sig) → Buf (Elt Ideal) ℓ) (ρ : Dev nD → PrngReg)

theorem value_run
    (hreal : ∀ c : Dev nD, (∀ i, Cert.Lib.IsReal (A0 m c i)) ∧ (∀ i, Cert.Lib.IsReal (A1 m c i))
      ∧ (∀ i, Cert.Lib.IsReal (A2 m c i)) ∧ (∀ i, Cert.Lib.IsReal (A3 m c i))) :
    θ_run defs (onTc (τ := τ) (main (F := Ideal))) ⟨m, fun _ => 0, ρ⟩ (fun r => ∀ c : Dev nD,
      r.2.mem ((c.tc : Thread nD τ).loc main_v60)
          = val_main_v88 (F := Ideal) (A0 m c) (A1 m c) (A2 m c) (A3 m c) (A4 m c) (A7 m c)
      ∧ r.2.mem ((c.tc : Thread nD τ).loc main_v92)
          = val_main_v141 (F := Ideal) (A0 m c) (A1 m c) (A2 m c) (A3 m c) (A4 m c) (A5 m c) (A6 m c) (A7 m c) (A8 m c) (A9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
      obtain ⟨h0, h1, h2, h3⟩ := hreal c
      exact ⟨(h c _ (mem_uc main_v60 (by decide))).trans (W9_v60_val m ρ c h0 h1 h2 h3),
        (h c _ (mem_uc main_v92 (by decide))).trans (W9_v92 m ρ c h0 h1 h2 h3),
        (h c _ (mem_uc main_arg0 (by decide))).trans (W9_main_arg0 m ρ c),
        (h c _ (mem_uc main_arg1 (by decide))).trans (W9_main_arg1 m ρ c),
        (h c _ (mem_uc main_arg2 (by decide))).trans (W9_main_arg2 m ρ c),
        (h c _ (mem_uc main_arg3 (by decide))).trans (W9_main_arg3 m ρ c),
        (h c _ (mem_uc main_arg4 (by decide))).trans (W9_main_arg4 m ρ c),
        (h c _ (mem_uc main_arg5 (by decide))).trans (W9_main_arg5 m ρ c),
        (h c _ (mem_uc main_arg6 (by decide))).trans (W9_main_arg6 m ρ c),
        (h c _ (mem_uc main_arg7 (by decide))).trans (W9_main_arg7 m ρ c),
        (h c _ (mem_uc main_arg8 (by decide))).trans (W9_main_arg8 m ρ c),
        (h c _ (mem_uc main_arg9 (by decide))).trans (W9_main_arg9 m ρ c)⟩)
    (KRun.run_all m ρ)

end Cert.KernelIdeal.KValue

end
-- ==== Proof.lean ====
/-
  A two-layer graph network with an edge scorer: the kernel against its reference, on the extended reals.

  Both programs normalise messages by nu e = dinv(src e) * dinv(dst e), dinv = 1 / sqrt(degree), over the given
  edges followed by one self-loop per node, so every degree is at least one. The first layer is the same in both:
  h = max(A (x W1) + b1, 0), where A aggregates rows over the edges landing on a node; the kernel computes x W1 in
  row blocks, which at exact arithmetic is the whole product. In the second layer the reference computes
  z = A (h W2) + b2 and the kernel z = (A h) W2 + b2: the weights commute past the aggregation because every h,
  nu and W2 entry is a real number when the float inputs are finite (distributing over a sum needs that). For the
  edge logits the reference gathers the endpoints' rows of z and projects them on the two halves of We; the
  kernel projects every node once and gathers scalars: the same numbers, entry by entry.

  The three frames are the generated ones (the reference's is its generated run with the results dropped); the
  idealization rewrote nothing, so that conjunct is trivial; the last conjunct pairs the kernel's run with its
  results named (Proof/KernelValue.lean) with the reference's generated run, both at the reference's stage
  functions of the arguments.
-/
import proofs.«104134_j25340307046431_2_alg».proof.Defs
import proofs.«104134_j25340307046431_2_alg».proof.Proof.Gen.Kernel
import proofs.«104134_j25340307046431_2_alg».proof.Proof.Gen.Kernel.Frame
import proofs.«104134_j25340307046431_2_alg».proof.Proof.Gen.KernelIdeal
import proofs.«104134_j25340307046431_2_alg».proof.Proof.Gen.KernelIdeal.Frame
import proofs.«104134_j25340307046431_2_alg».proof.Proof.Gen.ReferenceIdeal
import proofs.«104134_j25340307046431_2_alg».proof.Proof.Gen.ReferenceIdeal.Run
import proofs.«104134_j25340307046431_2_alg».proof.Proof.Gen.ReferenceIdeal.Read
import proofs.«104134_j25340307046431_2_alg».proof.Proof.Gen.Pre_finite_inputs
import proofs.«104134_j25340307046431_2_alg».proof.Proof.FiniteArgs
import proofs.«104134_j25340307046431_2_alg».proof.Proof.KernelValue
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both runs end at the reference's stage functions of the arguments: the kernel's by its run with the results
    named, under the finiteness of x, W1, b1 and W2; the reference's by its generated run. -/
theorem algebraic : Cert.algebraic_KernelIdeal_ReferenceIdeal := by
  intro m ρ m' ρ' hpre hagree
  refine ⟨fun c => Cert.ReferenceIdeal.Read.val_main_v88 (F := Ideal) (Cert.KernelIdeal.KFold.A0 m c) (Cert.KernelIdeal.KFold.A1 m c)
      (Cert.KernelIdeal.KFold.A2 m c) (Cert.KernelIdeal.KFold.A3 m c) (Cert.KernelIdeal.KFold.A4 m c) (Cert.KernelIdeal.KFold.A7 m c),
    fun c => Cert.ReferenceIdeal.Read.val_main_v141 (F := Ideal) (Cert.KernelIdeal.KFold.A0 m c) (Cert.KernelIdeal.KFold.A1 m c)
      (Cert.KernelIdeal.KFold.A2 m c) (Cert.KernelIdeal.KFold.A3 m c) (Cert.KernelIdeal.KFold.A4 m c) (Cert.KernelIdeal.KFold.A5 m c)
      (Cert.KernelIdeal.KFold.A6 m c) (Cert.KernelIdeal.KFold.A7 m c) (Cert.KernelIdeal.KFold.A8 m c) (Cert.KernelIdeal.KFold.A9 m c),
    Cert.KernelIdeal.KValue.value_run m ρ (fun c => ⟨Cert.KernelIdeal.Finite.real_arg0 m hpre c,
      Cert.KernelIdeal.Finite.real_arg1 m hpre c, Cert.KernelIdeal.Finite.real_arg2 m hpre c,
      Cert.KernelIdeal.Finite.real_arg3 m hpre c⟩), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9⟩ := hagree c
    rw [Cert.ReferenceIdeal.Read.val_main_v88_eq, e0, e1, e2, e3, e4, e7]
  · obtain ⟨e0, e1, e2, e3, e4, e5, e6, e7, e8, e9⟩ := hagree c
    rw [Cert.ReferenceIdeal.Read.val_main_v141_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
